-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S8192x8 : Shape := ⟨2, ![8192, 8]⟩
abbrev S2048x8 : Shape := ⟨2, ![2048, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8x1024x4096 : S_.BroadcastsInDim S8x1024x4096 (![] : Fin 0 → Fin S8x1024x4096.rank)
  reducesTo_S8x1024x4096_S_d0_1_2 : S8x1024x4096.ReducesTo [0, 1, 2] S_
  bcast_S_S8x4096 : S_.BroadcastsInDim S8x4096 (![] : Fin 0 → Fin S8x4096.rank)
  reducesTo_S8x4096_S_d0_1 : S8x4096.ReducesTo [0, 1] S_
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x1024 : S_.BroadcastsInDim S8x1024 (![] : Fin 0 → Fin S8x1024.rank)
  reducesTo_S8x1024_S_d0_1 : S8x1024.ReducesTo [0, 1] S_

variable [Facts]

def fn_part1 {F : FTy → Type} [FloatOps F] (main_arg5 : FVec F S8x4096x1024 .f32) (main_arg6 : FVec F S8x1024 .f32) (main_v13 : IVec S_ 1) (main_v16 : IVec S8x4096 1) : IVec S_ 1 :=
  let main_c_5 : IVec S_ 1 := constantI S_ 1 1#1
  let main_v17 : IVec S_ 1 := (fun x v => Host.reduce IntOp.andi x v reducesTo_S8x4096_S_d0_1 h_S_) main_v16 main_c_5
  let main_v18 : IVec S_ 1 := andi main_v13 main_v17
  let main_v19 : FVec F S8x4096x1024 .f32 := Host.absf main_arg5
  let main_cst_6 : FVec F S_ .f32 := constant S_ .f32 0x7F800000#32
  let main_v20 : FVec F S8x4096x1024 .f32 := broadcastInDim S8x4096x1024 ![] bcast_S_S8x4096x1024 main_cst_6
  let main_v21 : IVec S8x4096x1024 1 := cmpf .olt main_v19 main_v20
  let main_c_7 : IVec S_ 1 := constantI S_ 1 1#1
  let main_v22 : IVec S_ 1 := (fun x v => Host.reduce IntOp.andi x v reducesTo_S8x4096x1024_S_d0_1_2 h_S_) main_v21 main_c_7
  let main_v23 : IVec S_ 1 := andi main_v18 main_v22
  let main_v24 : FVec F S8x1024 .f32 := Host.absf main_arg6
  let main_cst_8 : FVec F S_ .f32 := constant S_ .f32 0x7F800000#32
  let main_v25 : FVec F S8x1024 .f32 := broadcastInDim S8x1024 ![] bcast_S_S8x1024 main_cst_8
  let main_v26 : IVec S8x1024 1 := cmpf .olt main_v24 main_v25
  let main_c_9 : IVec S_ 1 := constantI S_ 1 1#1
  let main_v27 : IVec S_ 1 := (fun x v => Host.reduce IntOp.andi x v reducesTo_S8x1024_S_d0_1 h_S_) main_v26 main_c_9
  let main_v28 : IVec S_ 1 := andi main_v23 main_v27
  main_v28

def fn {F : FTy → Type} [FloatOps F] (main_arg0 : FVec F S2048x4x1024 .f32) (main_arg1 : FVec F S8192x8 .f32) (main_arg2 : IVec S2048x8 32) (main_arg3 : FVec F S8x1024x4096 .f32) (main_arg4 : FVec F S8x4096 .f32) (main_arg5 : FVec F S8x4096x1024 .f32) (main_arg6 : FVec F S8x1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8x1024x4096 .f32 := Host.absf main_arg3
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096 .f32 := Host.absf main_arg4
  let main_cst_4 : FVec F S_ .f32 := constant S_ .f32 0x7F800000#32
  let main_v15 : FVec F S8x4096 .f32 := broadcastInDim S8x4096 ![] bcast_S_S8x4096 main_cst_4
  let main_v16 : IVec S8x4096 1 := cmpf .olt main_v14 main_v15
  fn_part1 (F := F) main_arg5 main_arg6 main_v13 main_v16
-- ==== Kernel.lean ====
abbrev S2048x4x1024 : Shape := ⟨3, ![2048, 4, 1024]⟩
abbrev S8192x8 : Shape := ⟨2, ![8192, 8]⟩
abbrev S2048x8 : Shape := ⟨2, ![2048, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8192x1024 : Shape := ⟨2, ![8192, 1024]⟩
abbrev S8x2048 : Shape := ⟨2, ![8, 2048]⟩
abbrev S_ : Shape := ⟨0, ![]⟩
abbrev S8x2048x1 : Shape := ⟨3, ![8, 2048, 1]⟩
abbrev S8x2048x1024 : Shape := ⟨3, ![8, 2048, 1024]⟩
abbrev S8 : Shape := ⟨1, ![8]⟩
abbrev S8x1 : Shape := ⟨2, ![8, 1]⟩
abbrev S8x2048x2 : Shape := ⟨3, ![8, 2048, 2]⟩
abbrev S1x256x1024 : Shape := ⟨3, ![1, 256, 1024]⟩
abbrev S1x1024x4096 : Shape := ⟨3, ![1, 1024, 4096]⟩
abbrev S1x4096x1024 : Shape := ⟨3, ![1, 4096, 1024]⟩
abbrev S256x1024 : Shape := ⟨2, ![256, 1024]⟩
abbrev S1024x4096 : Shape := ⟨2, ![1024, 4096]⟩
abbrev S256x4096 : Shape := ⟨2, ![256, 4096]⟩
abbrev S1x4096 : Shape := ⟨2, ![1, 4096]⟩
abbrev S4096 : Shape := ⟨1, ![4096]⟩
abbrev S4096x1024 : Shape := ⟨2, ![4096, 1024]⟩
abbrev S1x1024 : Shape := ⟨2, ![1, 1024]⟩
abbrev S1024 : Shape := ⟨1, ![1024]⟩
abbrev S1x2048 : Shape := ⟨2, ![1, 2048]⟩
abbrev S2048 : Shape := ⟨1, ![2048]⟩
abbrev S256 : Shape := ⟨1, ![256]⟩
abbrev S256x1 : Shape := ⟨2, ![256, 1]⟩
abbrev S16384 : Shape := ⟨1, ![16384]⟩
abbrev S16384x1024 : Shape := ⟨2, ![16384, 1024]⟩
abbrev S16384x1 : Shape := ⟨2, ![16384, 1]⟩

abbrev nBuf : Space → Nat
  | .hbm => 57
  | .vmem => 9
  | .smem => 0
  | _ => 0

abbrev bufTy : (tb : Table) → Fin (tcTables nBuf tb) → BufTy
  | .hbm, ⟨0, _⟩ => ⟨S2048x4x1024, .f32⟩
  | .hbm, ⟨1, _⟩ => ⟨S8192x8, .f32⟩
  | .hbm, ⟨2, _⟩ => ⟨S2048x8, .i32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S8192x1024, .f32⟩
  | .hbm, ⟨8, _⟩ => ⟨S8x2048, .i32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x1024, .f32⟩
  | .hbm, ⟨18, _⟩ => ⟨S8, .i32⟩
  | .hbm, ⟨19, _⟩ => ⟨S8x1, .i32⟩
  | .hbm, ⟨20, _⟩ => ⟨S_, .i32⟩
  | .hbm, ⟨21, _⟩ => ⟨S8x2048, .i32⟩
  | .hbm, ⟨22, _⟩ => ⟨S8x2048, .i1⟩
  | .hbm, ⟨23, _⟩ => ⟨S_, .i32⟩
  | .hbm, ⟨24, _⟩ => ⟨S8x2048, .i32⟩
  | .hbm, ⟨25, _⟩ => ⟨S8x2048, .i32⟩
  | .hbm, ⟨26, _⟩ => ⟨S8x2048, .i32⟩
  | .hbm, ⟨27, _⟩ => ⟨S_, .i32⟩
  | .hbm, ⟨28, _⟩ => ⟨S8x1, .i32⟩
  | .hbm, ⟨29, _⟩ => ⟨S8x1, .i1⟩
  | .hbm, ⟨30, _⟩ => ⟨S_, .i32⟩
  | .hbm, ⟨31, _⟩ => ⟨S8x1, .i32⟩
  | .hbm, ⟨32, _⟩ => ⟨S8x1, .i32⟩
  | .hbm, ⟨33, _⟩ => ⟨S8x1, .i32⟩
  | .hbm, ⟨34, _⟩ => ⟨S8x2048, .i32⟩
  | .hbm, ⟨35, _⟩ => ⟨S8x2048x1, .i32⟩
  | .hbm, ⟨36, _⟩ => ⟨S8x2048x1, .i32⟩
  | .hbm, ⟨37, _⟩ => ⟨S8x2048x2, .i32⟩
  | .hbm, ⟨38, _⟩ => ⟨S8x2048, .f32⟩
  | .hbm, ⟨39, _⟩ => ⟨S8x2048x1024, .bf16⟩
  | .hbm, ⟨40, _⟩ => ⟨S8x1024x4096, .bf16⟩
  | .hbm, ⟨41, _⟩ => ⟨S8x4096x1024, .bf16⟩
  | .hbm, ⟨42, _⟩ => ⟨S8x2048x1024, .f32⟩
  | .hbm, ⟨43, _⟩ => ⟨S_, .f32⟩
  | .hbm, ⟨44, _⟩ => ⟨S8192x1024, .f32⟩
  | .hbm, ⟨45, _⟩ => ⟨S16384, .i32⟩
  | .hbm, ⟨46, _⟩ => ⟨S16384x1024, .f32⟩
  | .hbm, ⟨47, _⟩ => ⟨S_, .i32⟩
  | .hbm, ⟨48, _⟩ => ⟨S16384, .i32⟩
  | .hbm, ⟨49, _⟩ => ⟨S16384, .i1⟩
  | .hbm, ⟨50, _⟩ => ⟨S_, .i32⟩
  | .hbm, ⟨51, _⟩ => ⟨S16384, .i32⟩
  | .hbm, ⟨52, _⟩ => ⟨S16384, .i32⟩
  | .hbm, ⟨53, _⟩ => ⟨S16384, .i32⟩
  | .hbm, ⟨54, _⟩ => ⟨S16384x1, .i32⟩
  | .hbm, ⟨55, _⟩ => ⟨S8192x1024, .f32⟩
  | .hbm, ⟨56, _⟩ => ⟨S2048x4x1024, .f32⟩
  | .local _ .vmem, ⟨0, _⟩ => ⟨S1x256x1024, .bf16⟩
  | .local _ .vmem, ⟨1, _⟩ => ⟨S1x256x1024, .bf16⟩
  | .local _ .vmem, ⟨2, _⟩ => ⟨S1x1024x4096, .bf16⟩
  | .local _ .vmem, ⟨3, _⟩ => ⟨S8x4096, .f32⟩
  | .local _ .vmem, ⟨4, _⟩ => ⟨S1x4096x1024, .bf16⟩
  | .local _ .vmem, ⟨5, _⟩ => ⟨S8x1024, .f32⟩
  | .local _ .vmem, ⟨6, _⟩ => ⟨S8x2048, .f32⟩
  | .local _ .vmem, ⟨7, _⟩ => ⟨S1x256x1024, .f32⟩
  | .local _ .vmem, ⟨8, _⟩ => ⟨S1x256x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_c_6 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![8, 8], ![false, false]⟩

def k0_off1 (i : grid0.Coords) : Fin 2 → Nat :=
  let arg0 : BitVec 32 := BitVec.ofNat 32 (i 0).val
  let v5 : Index := Scalar.indexCast arg0
  let c0_5 : Index := 0#32
  ![v5.toNat, 0]
def k0_off2 (i : grid0.Coords) : Fin 2 → Nat :=
  let arg0 : BitVec 32 := BitVec.ofNat 32 (i 0).val
  let v28 : Index := Scalar.indexCast arg0
  let c0_14 : Index := 0#32
  ![v28.toNat, 0]
def k0_mult1 (i : grid0.Coords) : BitVec 32 :=
  let arg1 : BitVec 32 := BitVec.ofNat 32 (i 1).val
  let c256_i32 : BitVec 32 := 256#32
  let v34 : BitVec 32 := Scalar.muli arg1 c256_i32
  v34
def k0_off3 (i : grid0.Coords) : Fin 2 → Nat :=
  let arg0 : BitVec 32 := BitVec.ofNat 32 (i 0).val
  let c0_i32 : BitVec 32 := 0#32
  ![arg0.toNat, 0]
def k0_off4 (i : grid0.Coords) : Fin 1 → Nat :=
  let arg1 : BitVec 32 := BitVec.ofNat 32 (i 1).val
  let c256_i32 : BitVec 32 := 256#32
  let v34 : BitVec 32 := Scalar.muli arg1 c256_i32
  let v35 : BitVec 32 := v34
  let v38 : Index := Scalar.indexCast v35
  ![v38.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S2048x4x1024_S8192x1024 : S2048x4x1024.ShapeCasts S8192x1024
  transposes_S2048x8_S8x2048_1_0 : S2048x8.Transposes [1, 0] S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x2048_0_1 : S8x1.BroadcastsInDim S8x2048 (![0, 1] : Fin 2 → Fin S8x2048.rank)
  concatenates_S8x2048x1_S8x2048x1_S8x2048x2_d2 : Shape.Concatenates [S8x2048x1, S8x2048x1] S8x2048x2 2
  bitsLt_bf16_f32 : FTy.bits .bf16 < FTy.bits .f32
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x1024x4096_S1x1024x4096_0_0_0 : ∀ a, (![0, 0, 0] : Fin 3 → Nat) a + S1x1024x4096.size a ≤ S1x1024x4096.size a
  h_S1x1024x4096 : 0 < S1x1024x4096.numel
  shapeCasts_S1x1024x4096_S1024x4096 : S1x1024x4096.ShapeCasts S1024x4096
  h_S1x4096 : 0 < S1x4096.numel
  shapeCasts_S1x4096_S4096 : S1x4096.ShapeCasts S4096
  shapeCasts_S4096_S1x4096 : S4096.ShapeCasts S1x4096
  broadcasts_S1x4096_S256x4096 : S1x4096.Broadcasts S256x4096
  inb_S1x4096x1024_S1x4096x1024_0_0_0 : ∀ a, (![0, 0, 0] : Fin 3 → Nat) a + S1x4096x1024.size a ≤ S1x4096x1024.size a
  h_S1x4096x1024 : 0 < S1x4096x1024.numel
  shapeCasts_S1x4096x1024_S4096x1024 : S1x4096x1024.ShapeCasts S4096x1024
  h_S1x1024 : 0 < S1x1024.numel
  shapeCasts_S1x1024_S1024 : S1x1024.ShapeCasts S1024
  shapeCasts_S1024_S1x1024 : S1024.ShapeCasts S1x1024
  broadcasts_S1x1024_S256x1024 : S1x1024.Broadcasts S256x1024
  squeezes_S1x2048_S2048 : S1x2048.Squeezes S2048
  h_S256 : 0 < S256.numel
  shapeCasts_S256_S256 : S256.ShapeCasts S256
  shapeCasts_S256_S256x1 : S256.ShapeCasts S256x1
  broadcasts_S256x1_S256x1024 : S256x1.Broadcasts S256x1024
  shapeCasts_S256x1024_S1x256x1024 : S256x1024.ShapeCasts S1x256x1024
  bcast_S_S8192x1024 : S_.BroadcastsInDim S8192x1024 (![] : Fin 0 → Fin S8192x1024.rank)
  shapeCasts_S8x2048_S16384 : S8x2048.ShapeCasts S16384
  shapeCasts_S8x2048x1024_S16384x1024 : S8x2048x1024.ShapeCasts S16384x1024
  bcast_S_S16384 : S_.BroadcastsInDim S16384 (![] : Fin 0 → Fin S16384.rank)
  bcast_S16384_S16384x1_0 : S16384.BroadcastsInDim S16384x1 (![0] : Fin 1 → Fin S16384x1.rank)
  shapeCasts_S8192x1024_S2048x4x1024 : S8192x1024.ShapeCasts S2048x4x1024
  gather_S8192x1024_S8x2048x1_S8x2048x1024_2_0_n_n_0_2_11024_wf : GatherDims.WF S8192x1024 S8x2048x1 S8x2048x1024 [2] [0] [] [0] [] 2 ![1, 1024]
  gather_S8192x8_S8x2048x2_S8x2048_n_01_n_n_01_2_11_wf : GatherDims.WF S8192x8 S8x2048x2 S8x2048 [] [0, 1] [] [0, 1] [] 2 ![1, 1]
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  scatter_S8192x1024_S16384x1_S16384x1024_1_0_0_1_wf : ScatterDims.WF S8192x1024 S16384x1 S16384x1024 [1] [0] [0] 1
  hrank0 : 0 < grid0.rank
  k0_off1_inb : ∀ i : grid0.Coords, ∀ a, (k0_off1 i) a + S1x4096.size a ≤ S8x4096.size a
  k0_off2_inb : ∀ i : grid0.Coords, ∀ a, (k0_off2 i) a + S1x1024.size a ≤ S8x1024.size a
  k0_mult1_dvd : ∀ i : grid0.Coords, 128 ∣ (k0_mult1 i).toNat
  k0_off3_inb : ∀ i : grid0.Coords, ∀ a, (k0_off3 i) a + S1x2048.size a ≤ S8x2048.size a
  k0_off4_inb : ∀ i : grid0.Coords, ∀ a, (k0_off4 i) a + S256.size a ≤ S2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S8x2048x1024.size a
  hwx0_0 : ∀ i : grid0.Coords, EltTy.bits .bf16 = 32 ∨ (Rect.block (s := S8x2048x1024) S1x256x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024x4096.size a ≤ S8x1024x4096.size a
  hwx0_1 : ∀ i : grid0.Coords, EltTy.bits .bf16 = 32 ∨ (Rect.block (s := S8x1024x4096) S1x1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8x4096.size a ≤ S8x4096.size a
  hwx0_2 : ∀ i : grid0.Coords, EltTy.bits .f32 = 32 ∨ (Rect.block (s := S8x4096) S8x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096x1024.size a ≤ S8x4096x1024.size a
  hwx0_3 : ∀ i : grid0.Coords, EltTy.bits .bf16 = 32 ∨ (Rect.block (s := S8x4096x1024) S1x4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x1024.size a ≤ S8x1024.size a
  hwx0_4 : ∀ i : grid0.Coords, EltTy.bits .f32 = 32 ∨ (Rect.block (s := S8x1024) S8x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x2048.size a ≤ S8x2048.size a
  hwx0_5 : ∀ i : grid0.Coords, EltTy.bits .f32 = 32 ∨ (Rect.block (s := S8x2048) S8x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S8x2048x1024.size a
  hwx0_6 : ∀ i : grid0.Coords, EltTy.bits .f32 = 32 ∨ (Rect.block (s := S8x2048x1024) S1x256x1024.size (cc0_transform_6 i) (hinb0_6 i)).WholeWords (EltTy.packing .f32)

variable [Facts₀]

def gather_S8192x1024_S8x2048x1_S8x2048x1024_2_0_n_n_0_2_11024 : GatherDims S8192x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S8192x1024_S8x2048x1_S8x2048x1024_2_0_n_n_0_2_11024_wf
def gather_S8192x8_S8x2048x2_S8x2048_n_01_n_n_01_2_11 : GatherDims S8192x8 S8x2048x2 S8x2048 where
  offsetDims := []
  collapsedSliceDims := [0, 1]
  operandBatchingDims := []
  startIndicesBatchingDims := []
  startIndexMap := [0, 1]
  indexVectorDim := 2
  sliceSizes := ![1, 1]
  wf := gather_S8192x8_S8x2048x2_S8x2048_n_01_n_n_01_2_11_wf
def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

abbrev win0_0 : Pipeline.Window sig grid0 :=
  Pipeline.Window.ofSpec (Memref.whole main_v26) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S8x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v28) S1x4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S8x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S8x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2048x4x1024 : Shape := ⟨3, ![2048, 4, 1024]⟩
abbrev S8192x8 : Shape := ⟨2, ![8192, 8]⟩
abbrev S2048x8 : Shape := ⟨2, ![2048, 8]⟩
abbrev S8x1024x4096 : Shape := ⟨3, ![8, 1024, 4096]⟩
abbrev S8x4096 : Shape := ⟨2, ![8, 4096]⟩
abbrev S8x4096x1024 : Shape := ⟨3, ![8, 4096, 1024]⟩
abbrev S8x1024 : Shape := ⟨2, ![8, 1024]⟩
abbrev S8192x1024 : Shape := ⟨2, ![8192, 1024]⟩
abbrev S8x2048 : Shape := ⟨2, ![8, 2048]⟩
abbrev S_ : Shape := ⟨0, ![]⟩
abbrev S8x2048x1 : Shape := ⟨3, ![8, 2048, 1]⟩
abbrev S8x2048x1024 : Shape := ⟨3, ![8, 2048, 1024]⟩
abbrev S8x2048x4096 : Shape := ⟨3, ![8, 2048, 4096]⟩
abbrev S8x1x4096 : Shape := ⟨3, ![8, 1, 4096]⟩
abbrev S8x1x1024 : Shape := ⟨3, ![8, 1, 1024]⟩
abbrev S8 : Shape := ⟨1, ![8]⟩
abbrev S8x1 : Shape := ⟨2, ![8, 1]⟩
abbrev S8x2048x2 : Shape := ⟨3, ![8, 2048, 2]⟩
abbrev S16384x1024 : Shape := ⟨2, ![16384, 1024]⟩
abbrev S16384 : Shape := ⟨1, ![16384]⟩
abbrev S16384x1 : Shape := ⟨2, ![16384, 1]⟩

abbrev nBuf : Space → Nat
  | .hbm => 81
  | .vmem => 0
  | .smem => 0
  | _ => 0

abbrev bufTy : (tb : Table) → Fin (tcTables nBuf tb) → BufTy
  | .hbm, ⟨0, _⟩ => ⟨S2048x4x1024, .f32⟩
  | .hbm, ⟨1, _⟩ => ⟨S8192x8, .f32⟩
  | .hbm, ⟨2, _⟩ => ⟨S2048x8, .i32⟩
  | .hbm, ⟨3, _⟩ => ⟨S8x1024x4096, .f32⟩
  | .hbm, ⟨4, _⟩ => ⟨S8x4096, .f32⟩
  | .hbm, ⟨5, _⟩ => ⟨S8x4096x1024, .f32⟩
  | .hbm, ⟨6, _⟩ => ⟨S8x1024, .f32⟩
  | .hbm, ⟨7, _⟩ => ⟨S8192x1024, .f32⟩
  | .hbm, ⟨8, _⟩ => ⟨S8x2048, .i32⟩
  | .hbm, ⟨9, _⟩ => ⟨S_, .i32⟩
  | .hbm, ⟨10, _⟩ => ⟨S8x2048, .i32⟩
  | .hbm, ⟨11, _⟩ => ⟨S8x2048, .i1⟩
  | .hbm, ⟨12, _⟩ => ⟨S_, .i32⟩
  | .hbm, ⟨13, _⟩ => ⟨S8x2048, .i32⟩
  | .hbm, ⟨14, _⟩ => ⟨S8x2048, .i32⟩
  | .hbm, ⟨15, _⟩ => ⟨S8x2048, .i32⟩
  | .hbm, ⟨16, _⟩ => ⟨S8x2048x1, .i32⟩
  | .hbm, ⟨17, _⟩ => ⟨S8x2048x1024, .f32⟩
  | .hbm, ⟨18, _⟩ => ⟨S8x2048x4096, .f32⟩
  | .hbm, ⟨19, _⟩ => ⟨S8x1x4096, .f32⟩
  | .hbm, ⟨20, _⟩ => ⟨S8x2048x4096, .f32⟩
  | .hbm, ⟨21, _⟩ => ⟨S8x2048x4096, .f32⟩
  | .hbm, ⟨22, _⟩ => ⟨S8x2048x4096, .f32⟩
  | .hbm, ⟨23, _⟩ => ⟨S8x2048x4096, .f32⟩
  | .hbm, ⟨24, _⟩ => ⟨S_, .f32⟩
  | .hbm, ⟨25, _⟩ => ⟨S8x2048x4096, .f32⟩
  | .hbm, ⟨26, _⟩ => ⟨S8x2048x4096, .f32⟩
  | .hbm, ⟨27, _⟩ => ⟨S8x2048x4096, .f32⟩
  | .hbm, ⟨28, _⟩ => ⟨S_, .f32⟩
  | .hbm, ⟨29, _⟩ => ⟨S8x2048x4096, .f32⟩
  | .hbm, ⟨30, _⟩ => ⟨S8x2048x4096, .f32⟩
  | .hbm, ⟨31, _⟩ => ⟨S8x2048x4096, .f32⟩
  | .hbm, ⟨32, _⟩ => ⟨S_, .f32⟩
  | .hbm, ⟨33, _⟩ => ⟨S8x2048x4096, .f32⟩
  | .hbm, ⟨34, _⟩ => ⟨S8x2048x4096, .f32⟩
  | .hbm, ⟨35, _⟩ => ⟨S_, .f32⟩
  | .hbm, ⟨36, _⟩ => ⟨S8x2048x4096, .f32⟩
  | .hbm, ⟨37, _⟩ => ⟨S8x2048x4096, .f32⟩
  | .hbm, ⟨38, _⟩ => ⟨S8x2048x4096, .f32⟩
  | .hbm, ⟨39, _⟩ => ⟨S8x2048x1024, .f32⟩
  | .hbm, ⟨40, _⟩ => ⟨S8x1x1024, .f32⟩
  | .hbm, ⟨41, _⟩ => ⟨S8x2048x1024, .f32⟩
  | .hbm, ⟨42, _⟩ => ⟨S8x2048x1024, .f32⟩
  | .hbm, ⟨43, _⟩ => ⟨S8, .i32⟩
  | .hbm, ⟨44, _⟩ => ⟨S8x1, .i32⟩
  | .hbm, ⟨45, _⟩ => ⟨S_, .i32⟩
  | .hbm, ⟨46, _⟩ => ⟨S8x2048, .i32⟩
  | .hbm, ⟨47, _⟩ => ⟨S8x2048, .i1⟩
  | .hbm, ⟨48, _⟩ => ⟨S_, .i32⟩
  | .hbm, ⟨49, _⟩ => ⟨S8x2048, .i32⟩
  | .hbm, ⟨50, _⟩ => ⟨S8x2048, .i32⟩
  | .hbm, ⟨51, _⟩ => ⟨S8x2048, .i32⟩
  | .hbm, ⟨52, _⟩ => ⟨S_, .i32⟩
  | .hbm, ⟨53, _⟩ => ⟨S8x1, .i32⟩
  | .hbm, ⟨54, _⟩ => ⟨S8x1, .i1⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S8x1, .i32⟩
  | .hbm, ⟨59, _⟩ => ⟨S8x2048, .i32⟩
  | .hbm, ⟨60, _⟩ => ⟨S8x2048x1, .i32⟩
  | .hbm, ⟨61, _⟩ => ⟨S8x2048x1, .i32⟩
  | .hbm, ⟨62, _⟩ => ⟨S8x2048x2, .i32⟩
  | .hbm, ⟨63, _⟩ => ⟨S8x2048, .f32⟩
  | .hbm, ⟨64, _⟩ => ⟨S8x2048x1, .f32⟩
  | .hbm, ⟨65, _⟩ => ⟨S8x2048x1024, .f32⟩
  | .hbm, ⟨66, _⟩ => ⟨S8x2048x1024, .f32⟩
  | .hbm, ⟨67, _⟩ => ⟨S16384x1024, .f32⟩
  | .hbm, ⟨68, _⟩ => ⟨S_, .f32⟩
  | .hbm, ⟨69, _⟩ => ⟨S8192x1024, .f32⟩
  | .hbm, ⟨70, _⟩ => ⟨S16384, .i32⟩
  | .hbm, ⟨71, _⟩ => ⟨S_, .i32⟩
  | .hbm, ⟨72, _⟩ => ⟨S16384, .i32⟩
  | .hbm, ⟨73, _⟩ => ⟨S16384, .i1⟩
  | .hbm, ⟨74, _⟩ => ⟨S_, .i32⟩
  | .hbm, ⟨75, _⟩ => ⟨S16384, .i32⟩
  | .hbm, ⟨76, _⟩ => ⟨S16384, .i32⟩
  | .hbm, ⟨77, _⟩ => ⟨S16384, .i32⟩
  | .hbm, ⟨78, _⟩ => ⟨S16384x1, .i32⟩
  | .hbm, ⟨79, _⟩ => ⟨S8192x1024, .f32⟩
  | .hbm, ⟨80, _⟩ => ⟨S2048x4x1024, .f32⟩
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_c_4 : Ref sig .tc := ⟨.hbm, 45, rfl⟩
abbrev main_v32 : Ref sig .tc := ⟨.hbm, 46, rfl⟩
abbrev main_v33 : Ref sig .tc := ⟨.hbm, 47, rfl⟩
abbrev main_c_5 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_8 : Ref sig .tc := ⟨.hbm, 68, rfl⟩
abbrev main_v51 : Ref sig .tc := ⟨.hbm, 69, rfl⟩
abbrev main_v52 : Ref sig .tc := ⟨.hbm, 70, rfl⟩
abbrev main_c_9 : Ref sig .tc := ⟨.hbm, 71, rfl⟩
abbrev main_v53 : Ref sig .tc := ⟨.hbm, 72, rfl⟩
abbrev main_v54 : Ref sig .tc := ⟨.hbm, 73, rfl⟩
abbrev main_c_10 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  shapeCasts_S2048x4x1024_S8192x1024 : S2048x4x1024.ShapeCasts S8192x1024
  transposes_S2048x8_S8x2048_1_0 : S2048x8.Transposes [1, 0] S8x2048
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x4096_S8x1x4096_0_2 : S8x4096.BroadcastsInDim S8x1x4096 (![0, 2] : Fin 2 → Fin S8x1x4096.rank)
  bcast_S8x1x4096_S8x2048x4096_0_1_2 : S8x1x4096.BroadcastsInDim S8x2048x4096 (![0, 1, 2] : Fin 3 → Fin S8x2048x4096.rank)
  bcast_S_S8x2048x4096 : S_.BroadcastsInDim S8x2048x4096 (![] : Fin 0 → Fin S8x2048x4096.rank)
  bcast_S8x1024_S8x1x1024_0_2 : S8x1024.BroadcastsInDim S8x1x1024 (![0, 2] : Fin 2 → Fin S8x1x1024.rank)
  bcast_S8x1x1024_S8x2048x1024_0_1_2 : S8x1x1024.BroadcastsInDim S8x2048x1024 (![0, 1, 2] : Fin 3 → Fin S8x2048x1024.rank)
  bcast_S8_S8x1_0 : S8.BroadcastsInDim S8x1 (![0] : Fin 1 → Fin S8x1.rank)
  bcast_S_S8x1 : S_.BroadcastsInDim S8x1 (![] : Fin 0 → Fin S8x1.rank)
  bcast_S8x1_S8x2048_0_1 : S8x1.BroadcastsInDim S8x2048 (![0, 1] : Fin 2 → Fin S8x2048.rank)
  concatenates_S8x2048x1_S8x2048x1_S8x2048x2_d2 : Shape.Concatenates [S8x2048x1, S8x2048x1] S8x2048x2 2
  bcast_S8x2048x1_S8x2048x1024_0_1_2 : S8x2048x1.BroadcastsInDim S8x2048x1024 (![0, 1, 2] : Fin 3 → Fin S8x2048x1024.rank)
  shapeCasts_S8x2048x1024_S16384x1024 : S8x2048x1024.ShapeCasts S16384x1024
  bcast_S_S8192x1024 : S_.BroadcastsInDim S8192x1024 (![] : Fin 0 → Fin S8192x1024.rank)
  shapeCasts_S8x2048_S16384 : S8x2048.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  shapeCasts_S8192x1024_S2048x4x1024 : S8192x1024.ShapeCasts S2048x4x1024
  gather_S8192x1024_S8x2048x1_S8x2048x1024_2_0_n_n_0_2_11024_wf : GatherDims.WF S8192x1024 S8x2048x1 S8x2048x1024 [2] [0] [] [0] [] 2 ![1, 1024]
  dot_S8x2048x1024_S8x1024x4096_S8x2048x4096_2_1_1_2_0_0_wf : DotDims.WF S8x2048x1024 S8x1024x4096 S8x2048x4096 [2] [1] [1] [2] [0] [0]
  dot_S8x2048x4096_S8x4096x1024_S8x2048x1024_2_1_1_2_0_0_wf : DotDims.WF S8x2048x4096 S8x4096x1024 S8x2048x1024 [2] [1] [1] [2] [0] [0]
  gather_S8192x8_S8x2048x2_S8x2048_n_01_n_n_01_2_11_wf : GatherDims.WF S8192x8 S8x2048x2 S8x2048 [] [0, 1] [] [0, 1] [] 2 ![1, 1]
  scatter_S8192x1024_S16384x1_S16384x1024_1_0_0_1_wf : ScatterDims.WF S8192x1024 S16384x1 S16384x1024 [1] [0] [0] 1

variable [Facts₀]

def gather_S8192x1024_S8x2048x1_S8x2048x1024_2_0_n_n_0_2_11024 : GatherDims S8192x1024 S8x2048x1 S8x2048x1024 where
  offsetDims := [2]
  collapsedSliceDims := [0]
  operandBatchingDims := []
  startIndicesBatchingDims := []
  startIndexMap := [0]
  indexVectorDim := 2
  sliceSizes := ![1, 1024]
  wf := gather_S8192x1024_S8x2048x1_S8x2048x1024_2_0_n_n_0_2_11024_wf
def dot_S8x2048x1024_S8x1024x4096_S8x2048x4096_2_1_1_2_0_0 : DotDims S8x2048x1024 S8x1024x4096 S8x2048x4096 where
  lhsContracting := [2]
  rhsContracting := [1]
  lhsNonContracting := [1]
  rhsNonContracting := [2]
  lhsBatch := [0]
  rhsBatch := [0]
  wf := dot_S8x2048x1024_S8x1024x4096_S8x2048x4096_2_1_1_2_0_0_wf
def dot_S8x2048x4096_S8x4096x1024_S8x2048x1024_2_1_1_2_0_0 : DotDims S8x2048x4096 S8x4096x1024 S8x2048x1024 where
  lhsContracting := [2]
  rhsContracting := [1]
  lhsNonContracting := [1]
  rhsNonContracting := [2]
  lhsBatch := [0]
  rhsBatch := [0]
  wf := dot_S8x2048x4096_S8x4096x1024_S8x2048x1024_2_1_1_2_0_0_wf
def gather_S8192x8_S8x2048x2_S8x2048_n_01_n_n_01_2_11 : GatherDims S8192x8 S8x2048x2 S8x2048 where
  offsetDims := []
  collapsedSliceDims := [0, 1]
  operandBatchingDims := []
  startIndicesBatchingDims := []
  startIndexMap := [0, 1]
  indexVectorDim := 2
  sliceSizes := ![1, 1]
  wf := gather_S8192x8_S8x2048x2_S8x2048_n_01_n_n_01_2_11_wf
def scatter_S8192x1024_S16384x1_S16384x1024_1_0_0_1 : ScatterDims S8192x1024 S16384x1 S16384x1024 where
  updateWindowDims := [1]
  insertedWindowDims := [0]
  scatterDimsToOperandDims := [0]
  indexVectorDim := 1
  wf := scatter_S8192x1024_S16384x1_S16384x1024_1_0_0_1_wf

class Facts : Prop extends Facts₀ where

variable [Facts]
-- ==== Proof.PointBits.lean ====
/-
  One grid point of the expert kernel, and its run over the grid (program `Kernel`).

  The grid is (expert e, token tile j) with 8 × 8 points.  At a point the body reads the tile's 256 gathered token rows,
  expert e's two weight matrices, row e of each of the two bias tables, and entries 256·j … 256·j + 255 of row e of the
  table of gate weights (through a one-row view of that table); it computes the gated two-layer perceptron of the 256 rows
  and overwrites the whole 256 × 1024 output block with it.  Nothing is carried from one point to the next, so what a point
  leaves in the output block is one function (`blockOut`) of the six input blocks; the output block it found is read once
  and not used.

  From that: the per-point proof data of the pipeline (every input block left as it was found, the output block at
  `blockOut`), the body's specification at a generic point, the run of the whole program around the one region, and the
  frame — the program terminates, faults nowhere and leaves its seven argument arrays as they were.  All of it holds for
  any interpretation `F` of the float operations.
-/
import proofs.«131287_j82334523065003_1_alg».proof.Proof.Gen.Kernel.Launch
import proofs.«131287_j82334523065003_1_alg».proof.Proof.Gen.Kernel.Skeleton
import proofs.«131287_j82334523065003_1_alg».proof.Proof.Gen.Kernel.Points
import proofs.«131287_j82334523065003_1_alg».proof.Proof.Gen.Kernel.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Point

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body reads and writes -/

/-- The whole token tile (also the whole output block: the two have one shape). -/
abbrev tileRect : Rect S1x256x1024 := Rect.unit (s := S1x256x1024) ![0, 0, 0] S1x256x1024.size inb_S1x256x1024_S1x256x1024_0_0_0
/-- The whole first weight matrix of the point's expert. -/
abbrev w1Rect : Rect S1x1024x4096 := Rect.unit (s := S1x1024x4096) ![0, 0, 0] S1x1024x4096.size inb_S1x1024x4096_S1x1024x4096_0_0_0
/-- The whole second weight matrix of the point's expert. -/
abbrev w2Rect : Rect S1x4096x1024 := Rect.unit (s := S1x4096x1024) ![0, 0, 0] S1x4096x1024.size inb_S1x4096x1024_S1x4096x1024_0_0_0
/-- Row e of the first bias table. -/
abbrev b1Row (i : grid0.Coords) : Rect S8x4096 := Rect.unit (s := S8x4096) (k0_off1 i) S1x4096.size (k0_off1_inb i)
/-- Row e of the second bias table. -/
abbrev b2Row (i : grid0.Coords) : Rect S8x1024 := Rect.unit (s := S8x1024) (k0_off2 i) S1x1024.size (k0_off2_inb i)
/-- Row e of the gate-weight table, kept as a one-row matrix. -/
abbrev gateRow (i : grid0.Coords) : Rect S8x2048 := Rect.unit (s := S8x2048) (k0_off3 i) S1x2048.size (k0_off3_inb i)
/-- Entries 256·j … 256·j + 255 of that row. -/
abbrev gateCut (i : grid0.Coords) : Rect S2048 := Rect.unit (s := S2048) (k0_off4 i) S256.size (k0_off4_inb i)

/-! ## What a point leaves in the output block -/

/-- The output block after the body at grid point `i`, from the six input blocks: its one store, of the gated perceptron
    of what the six loads read. -/
def blockOut (i : grid0.Coords) (x0 : Vec F S1x256x1024 .bf16) (x1 : Vec F S1x1024x4096 .bf16) (x2 : Vec F S8x4096 .f32)
    (x3 : Vec F S1x4096x1024 .bf16) (x4 : Vec F S8x1024 .f32) (x5 : Vec F S8x2048 .f32) : Vec F S1x256x1024 .f32 :=
  View.canon [⟨tileRect, k0_pay1 (k0_pay2 (View.ld x0 tileRect) (View.ld x1 w1Rect) (View.ld x2 (b1Row i)) (View.ld x3 w2Rect) (View.ld x4 (b2Row i)))
    (View.ld (shapeCast S2048 (View.ld x5 (gateRow i)) squeezes_S1x2048_S2048.numel_eq) (gateCut i))⟩]

/-- The one store covers the block. -/
theorem store_covers (p0 : Vec F S1x256x1024 .f32) (y : S1x256x1024.Idx) :
    ∃ pc ∈ ([⟨tileRect, p0⟩] : List (View.Piece (Elt F) S1x256x1024 .f32)), y ∈ pc.1.set :=
  View.cover_of_tiled [⟨tileRect, p0⟩] S1x256x1024.size (by rfl) y

/-! ## The body's specification -/

set_option maxHeartbeats 1000000 in
/-- The body on whole staging buffers — the six inputs' at contents `x0 … x5`, the output's at anything — runs to its end
    without a fault, leaves the inputs' as they were and the output's at `blockOut`. -/
theorem sound_kernel (c : Dev nD) (E : Set ℕ) (i : grid0.Coords) (arg2 : Memref sig .tc .vmem S1x256x1024 .bf16) (harg2 : arg2.IsWhole) (arg3 : Memref sig .tc .vmem S1x1024x4096 .bf16) (harg3 : arg3.IsWhole) (arg4 : Memref sig .tc .vmem S8x4096 .f32) (harg4 : arg4.IsWhole) (arg5 : Memref sig .tc .vmem S1x4096x1024 .bf16) (harg5 : arg5.IsWhole) (arg6 : Memref sig .tc .vmem S8x1024 .f32) (harg6 : arg6.IsWhole) (arg7 : Memref sig .tc .vmem S8x2048 .f32) (harg7 : arg7.IsWhole) (arg8 : Memref sig .tc .vmem S1x256x1024 .f32) (harg8 : arg8.IsWhole)
    (x0 : Vec F S1x256x1024 .bf16) (x1 : Vec F S1x1024x4096 .bf16) (x2 : Vec F S8x4096 .f32) (x3 : Vec F S1x4096x1024 .bf16) (x4 : Vec F S8x1024 .f32) (x5 : Vec F S8x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blockOut i x0 x1 x2 x3 x4 x5)) -∗ K ⟨⟩))
      ⊢ wp frame (wpE (defs₀ (F := F)) Variants.none c none) E (cc0__expert_mlp_kernel i arg2 harg2 arg3 harg3 arg4 harg4 arg5 harg5 arg6 harg6 arg7 harg7 arg8 harg8) K := by
  simp only [cc0__expert_mlp_kernel_eq_skeleton]; unfold cc0__expert_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (store_covers _)

/-! ## The pipeline's proof data -/

/-- On core `c`: the arrays as the region finds them; after the body at point `t` every input block as it was found and the
    output block at `blockOut` of the six; nothing else is used, nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = blockOut (grid0.coords t) (iblk m c 0 t) (iblk m c 1 t) (iblk m c 2 t) (iblk m c 3 t) (iblk m c 4 t) (iblk m c 5 t) := by dsimp only [dats]

/-- Each input's current staging buffer holds its block at every point, whether the point fetched it or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's specification applies; the rest passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation for its body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, and at its end every array of the pipeline
    holds what the proof data says and every other buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.Point

end
-- ==== Proof.PointIdeal.lean ====
/-
  One grid point of the expert kernel, and its run over the grid (program `KernelIdeal`).

  The grid is (expert e, token tile j) with 8 × 8 points.  At a point the body reads the tile's 256 gathered token rows,
  expert e's two weight matrices, row e of each of the two bias tables, and entries 256·j … 256·j + 255 of row e of the
  table of gate weights (through a one-row view of that table); it computes the gated two-layer perceptron of the 256 rows
  and overwrites the whole 256 × 1024 output block with it.  Nothing is carried from one point to the next, so what a point
  leaves in the output block is one function (`blockOut`) of the six input blocks; the output block it found is read once
  and not used.

  From that: the per-point proof data of the pipeline (every input block left as it was found, the output block at
  `blockOut`), the body's specification at a generic point, the run of the whole program around the one region, and the
  frame — the program terminates, faults nowhere and leaves its seven argument arrays as they were.  All of it holds for
  any interpretation `F` of the float operations.
-/
import proofs.«131287_j82334523065003_1_alg».proof.Proof.Gen.KernelIdeal.Launch
import proofs.«131287_j82334523065003_1_alg».proof.Proof.Gen.KernelIdeal.Skeleton
import proofs.«131287_j82334523065003_1_alg».proof.Proof.Gen.KernelIdeal.Points
import proofs.«131287_j82334523065003_1_alg».proof.Proof.Gen.KernelIdeal.Frame
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Point

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the body reads and writes -/

/-- The whole token tile (also the whole output block: the two have one shape). -/
abbrev tileRect : Rect S1x256x1024 := Rect.unit (s := S1x256x1024) ![0, 0, 0] S1x256x1024.size inb_S1x256x1024_S1x256x1024_0_0_0
/-- The whole first weight matrix of the point's expert. -/
abbrev w1Rect : Rect S1x1024x4096 := Rect.unit (s := S1x1024x4096) ![0, 0, 0] S1x1024x4096.size inb_S1x1024x4096_S1x1024x4096_0_0_0
/-- The whole second weight matrix of the point's expert. -/
abbrev w2Rect : Rect S1x4096x1024 := Rect.unit (s := S1x4096x1024) ![0, 0, 0] S1x4096x1024.size inb_S1x4096x1024_S1x4096x1024_0_0_0
/-- Row e of the first bias table. -/
abbrev b1Row (i : grid0.Coords) : Rect S8x4096 := Rect.unit (s := S8x4096) (k0_off1 i) S1x4096.size (k0_off1_inb i)
/-- Row e of the second bias table. -/
abbrev b2Row (i : grid0.Coords) : Rect S8x1024 := Rect.unit (s := S8x1024) (k0_off2 i) S1x1024.size (k0_off2_inb i)
/-- Row e of the gate-weight table, kept as a one-row matrix. -/
abbrev gateRow (i : grid0.Coords) : Rect S8x2048 := Rect.unit (s := S8x2048) (k0_off3 i) S1x2048.size (k0_off3_inb i)
/-- Entries 256·j … 256·j + 255 of that row. -/
abbrev gateCut (i : grid0.Coords) : Rect S2048 := Rect.unit (s := S2048) (k0_off4 i) S256.size (k0_off4_inb i)

/-! ## What a point leaves in the output block -/

/-- The output block after the body at grid point `i`, from the six input blocks: its one store, of the gated perceptron
    of what the six loads read. -/
def blockOut (i : grid0.Coords) (x0 : Vec F S1x256x1024 .bf16) (x1 : Vec F S1x1024x4096 .bf16) (x2 : Vec F S8x4096 .f32)
    (x3 : Vec F S1x4096x1024 .bf16) (x4 : Vec F S8x1024 .f32) (x5 : Vec F S8x2048 .f32) : Vec F S1x256x1024 .f32 :=
  View.canon [⟨tileRect, k0_pay1 (k0_pay2 (View.ld x0 tileRect) (View.ld x1 w1Rect) (View.ld x2 (b1Row i)) (View.ld x3 w2Rect) (View.ld x4 (b2Row i)))
    (View.ld (shapeCast S2048 (View.ld x5 (gateRow i)) squeezes_S1x2048_S2048.numel_eq) (gateCut i))⟩]

/-- The one store covers the block. -/
theorem store_covers (p0 : Vec F S1x256x1024 .f32) (y : S1x256x1024.Idx) :
    ∃ pc ∈ ([⟨tileRect, p0⟩] : List (View.Piece (Elt F) S1x256x1024 .f32)), y ∈ pc.1.set :=
  View.cover_of_tiled [⟨tileRect, p0⟩] S1x256x1024.size (by rfl) y

/-! ## The body's specification -/

set_option maxHeartbeats 1000000 in
/-- The body on whole staging buffers — the six inputs' at contents `x0 … x5`, the output's at anything — runs to its end
    without a fault, leaves the inputs' as they were and the output's at `blockOut`. -/
theorem sound_kernel (c : Dev nD) (E : Set ℕ) (i : grid0.Coords) (arg2 : Memref sig .tc .vmem S1x256x1024 .bf16) (harg2 : arg2.IsWhole) (arg3 : Memref sig .tc .vmem S1x1024x4096 .bf16) (harg3 : arg3.IsWhole) (arg4 : Memref sig .tc .vmem S8x4096 .f32) (harg4 : arg4.IsWhole) (arg5 : Memref sig .tc .vmem S1x4096x1024 .bf16) (harg5 : arg5.IsWhole) (arg6 : Memref sig .tc .vmem S8x1024 .f32) (harg6 : arg6.IsWhole) (arg7 : Memref sig .tc .vmem S8x2048 .f32) (harg7 : arg7.IsWhole) (arg8 : Memref sig .tc .vmem S1x256x1024 .f32) (harg8 : arg8.IsWhole)
    (x0 : Vec F S1x256x1024 .bf16) (x1 : Vec F S1x1024x4096 .bf16) (x2 : Vec F S8x4096 .f32) (x3 : Vec F S1x4096x1024 .bf16) (x4 : Vec F S8x1024 .f32) (x5 : Vec F S8x2048 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (blockOut i x0 x1 x2 x3 x4 x5)) -∗ K ⟨⟩))
      ⊢ wp frame (wpE (defs₀ (F := F)) Variants.none c none) E (cc0__expert_mlp_kernel i arg2 harg2 arg3 harg3 arg4 harg4 arg5 harg5 arg6 harg6 arg7 harg7 arg8 harg8) K := by
  simp only [cc0__expert_mlp_kernel_eq_skeleton]; unfold cc0__expert_mlp_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (store_covers _)

/-! ## The pipeline's proof data -/

/-- On core `c`: the arrays as the region finds them; after the body at point `t` every input block as it was found and the
    output block at `blockOut` of the six; nothing else is used, nothing is owed, every share is whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut (grid0.coords t) (iblk m c 0 t) (iblk m c 1 t) (iblk m c 2 t) (iblk m c 3 t) (iblk m c 4 t) (iblk m c 5 t)
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t
    = blockOut (grid0.coords t) (iblk m c 0 t) (iblk m c 1 t) (iblk m c 2 t) (iblk m c 3 t) (iblk m c 4 t) (iblk m c 5 t) := by dsimp only [dats]

/-- Each input's current staging buffer holds its block at every point, whether the point fetched it or not. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d

/-! ## The body at a generic point -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so the body's specification applies; the rest passes
    through untouched. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline's obligation for its body, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates without a fault, and at its end every array of the pipeline
    holds what the proof data says and every other buffer what the host lines after the region leave. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the program runs to its end and its seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.Point

end
-- ==== Proof.ExpertSpec.lean ====
/-
  One entry of a gated two-layer perceptron, on the extended reals.

  A token row `x` (1024 numbers) is sent through `x ↦ gelu (x · w1 + b1) · w2 + b2` with a hidden width of 4096, and the
  result is scaled by the token's gate weight.  `gelu` is the tanh form
  `h · (1/2 · (1 + tanh (c₁ · (h + c₀ · h³))))`, with the two constants `c₀`, `c₁` and the numbers `1`, `1/2` kept as the
  32-bit words both programs spell them with: the same word is the same extended real on either side, so none of the
  four is ever evaluated.

  The only difference between the two programs' formulas is how the cube is bracketed, `h · (h · h)` against
  `(h · h) · h`; multiplication of extended reals is commutative, so the two agree everywhere (infinite `h` included),
  and nothing here needs the inputs to be finite.
-/
import Idealize.ShloMosaic.Lib.ValueIdx
import Idealize.ShloMosaic.PureOps.Ideal

noncomputable section

open scoped BigOperators

namespace Cert.ExpertSpec

open Idealize.ShloMosaic Idealize.ShloMosaic.ValueIdx

/-- The cubic coefficient of the tanh form, the float nearest 0.044715. -/
abbrev c0 : EReal := Ideal.ofBits .f32 0x3D372713#32
/-- The float nearest √(2/π). -/
abbrev c1 : EReal := Ideal.ofBits .f32 0x3F4C422A#32
/-- The float 1. -/
abbrev one : EReal := Ideal.ofBits .f32 0x3F800000#32
/-- The float 1/2. -/
abbrev half : EReal := Ideal.ofBits .f32 0x3F000000#32

/-- The tanh form of gelu with the cube bracketed `h · (h · h)`. -/
def gelu (h : EReal) : EReal := h * (half * (one + Ideal.tanh (c1 * (h + c0 * (h * (h * h))))))

/-- The same with the cube bracketed `(h · h) · h`. -/
def gelu' (h : EReal) : EReal := h * (half * (one + Ideal.tanh (c1 * (h + c0 * ((h * h) * h)))))

/-- The two bracketings of the cube agree on every extended real. -/
theorem gelu'_eq (h : EReal) : gelu' h = gelu h := by
  unfold gelu' gelu
  rw [mul_comm (h * h) h]

/-- The hidden unit `f` of a token row: `∑ₖ x k · w1 k f + b1 f`, before the nonlinearity. -/
def hidden (x : Fin 1024 → EReal) (w1 : Fin 1024 → Fin 4096 → EReal) (b1 : Fin 4096 → EReal) (f : Fin 4096) : EReal :=
  (∑ k : Fin 1024, x k * w1 k f) + b1 f

/-- Output entry `d` of the token row, scaled by the token's gate weight:
    `(∑_f gelu (hidden f) · w2 f d + b2 d) · gate`. -/
def entry (x : Fin 1024 → EReal) (w1 : Fin 1024 → Fin 4096 → EReal) (b1 : Fin 4096 → EReal)
    (w2 : Fin 4096 → Fin 1024 → EReal) (b2 : Fin 1024 → EReal) (gate : EReal) (d : Fin 1024) : EReal :=
  ((∑ f : Fin 4096, gelu (hidden x w1 b1 f) * w2 f d) + b2 d) * gate

/-- An entry depends on its row, weights, biases and gate weight only through their values. -/
theorem entry_congr {x x' : Fin 1024 → EReal} {w1 w1' : Fin 1024 → Fin 4096 → EReal} {b1 b1' : Fin 4096 → EReal}
    {w2 w2' : Fin 4096 → Fin 1024 → EReal} {b2 b2' : Fin 1024 → EReal} {gate gate' : EReal}
    (hx : ∀ k, x k = x' k) (h1 : ∀ k f, w1 k f = w1' k f) (hb1 : ∀ f, b1 f = b1' f)
    (h2 : ∀ f d, w2 f d = w2' f d) (hb2 : ∀ d, b2 d = b2' d) (hg : gate = gate') (d : Fin 1024) :
    entry x w1 b1 w2 b2 gate d = entry x' w1' b1' w2' b2' gate' d := by
  obtain rfl : x = x' := funext hx
  obtain rfl : w1 = w1' := funext fun k => funext (h1 k)
  obtain rfl : b1 = b1' := funext hb1
  obtain rfl : w2 = w2' := funext fun f => funext (h2 f)
  obtain rfl : b2 = b2' := funext hb2
  rw [hg]

/-- The whole result of the expert bank: 8 experts, 2048 token slots each; expert `e` uses its own weights and biases,
    slot `(e, s)` its own gathered row `g (e, s, ·)` and gate weight `wg (e, s)`. -/
def bank (g : (⟨3, ![8, 2048, 1024]⟩ : Shape).Idx → EReal) (w1 : (⟨3, ![8, 1024, 4096]⟩ : Shape).Idx → EReal)
    (b1 : (⟨2, ![8, 4096]⟩ : Shape).Idx → EReal) (w2 : (⟨3, ![8, 4096, 1024]⟩ : Shape).Idx → EReal)
    (b2 : (⟨2, ![8, 1024]⟩ : Shape).Idx → EReal) (wg : (⟨2, ![8, 2048]⟩ : Shape).Idx → EReal) :
    (⟨3, ![8, 2048, 1024]⟩ : Shape).Idx → EReal := fun i =>
  entry (fun k => g (ix3 (i 0) (i 1) k)) (fun k f => w1 (ix3 (i 0) k f)) (fun f => b1 (ix2 (i 0) f))
    (fun f d => w2 (ix3 (i 0) f d)) (fun d => b2 (ix2 (i 0) d)) (wg (ix2 (i 0) (i 1))) (i 2)

theorem bank_apply (g : (⟨3, ![8, 2048, 1024]⟩ : Shape).Idx → EReal) (w1 : (⟨3, ![8, 1024, 4096]⟩ : Shape).Idx → EReal)
    (b1 : (⟨2, ![8, 4096]⟩ : Shape).Idx → EReal) (w2 : (⟨3, ![8, 4096, 1024]⟩ : Shape).Idx → EReal)
    (b2 : (⟨2, ![8, 1024]⟩ : Shape).Idx → EReal) (wg : (⟨2, ![8, 2048]⟩ : Shape).Idx → EReal)
    (e : Fin 8) (s : Fin 2048) (d : Fin 1024) :
    bank g w1 b1 w2 b2 wg (ix3 e s d)
      = entry (fun k => g (ix3 e s k)) (fun k f => w1 (ix3 e k f)) (fun f => b1 (ix2 e f))
          (fun f d => w2 (ix3 e f d)) (fun d => b2 (ix2 e d)) (wg (ix2 e s)) d := rfl

end Cert.ExpertSpec

end
-- ==== Proof.LibPlainDot.lean ====
/-
  A plain matrix product read at an entry, for any extents.

  The dimension numbers of a product of an `n` × `K` matrix with a `K` × `M` matrix that contracts the first matrix's
  columns against the second's rows index their sum by the contraction shape's positions. When that shape has the one
  axis of extent `K` and the two operand indices at output entry (p, c) and contraction position `k` are (p, k) and
  (k, c) — four coordinate facts a program's literal dimension numbers decide — the sum is the textbook one,
  `∑ k : Fin K, l (p, k) · r (k, c)`. On the extended reals this reads a vector unit's matrix product into a zero
  accumulator and the host's `dot_general` alike.
-/
import Idealize.ShloMosaic.Lib.ValueIdx
import Idealize.ShloMosaic.PureOps.Ideal.Laws

noncomputable section

open scoped BigOperators

namespace Cert.PlainDot

open Idealize.ShloMosaic Idealize.ShloMosaic.ValueIdx

/-- The contraction's sum, re-indexed by the one contracted coordinate. -/
theorem sum_contr_eq {n K M : Nat} (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (l : (⟨2, ![n, K]⟩ : Shape).Idx → EReal) (r : (⟨2, ![K, M]⟩ : Shape).Idx → EReal) (p : Fin n) (c : Fin M) :
    ∑ q : D.contr.Idx, l (D.lhsIdx (ix2 p c) q) * r (D.rhsIdx (ix2 p c) q) = ∑ k : Fin K, l (ix2 p k) * r (ix2 k c) := by
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact l0 _ _
    | ⟨1, _⟩ => exact (l1 _ _).trans hk)
  have er : D.rhsIdx (ix2 p c) ((contrEquiv1 D K hr hs).symm k) = ix2 k c := funext fun a => Fin.ext (by
    match a with
    | ⟨0, _⟩ => exact (r0 _ _).trans hk
    | ⟨1, _⟩ => exact r1 _ _)
  rw [el, er]

/-- A vector unit's matrix product into the zero accumulator, at entry (p, c): `∑ k, lhs (p, k) · rhs (k, c)`. -/
theorem matmul_zero_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (lhs : FVec Ideal (⟨2, ![n, K]⟩ : Shape) φ₁) (rhs : FVec Ideal (⟨2, ![K, M]⟩ : Shape) φ₂)
    (p : Fin n) (c : Fin M) :
    FloatOps.matmul D prec lhs rhs (constant (⟨2, ![n, M]⟩ : Shape) .f32 0x00000000#32) (ix2 p c)
      = ∑ k : Fin K, (lhs (ix2 p k) : EReal) * (rhs (ix2 k c) : EReal) :=
  (Ideal.matmul_constant_zero_apply D prec lhs rhs (ix2 p c)).trans (sum_contr_eq D hr hs l0 l1 r0 r1 lhs rhs p c)

/-- The host's `dot_general`, at entry (p, c): the same sum. -/
theorem dotGeneral_apply {n K M : Nat} {φ₁ φ₂ : FTy}
    (D : DotDims (⟨2, ![n, K]⟩ : Shape) (⟨2, ![K, M]⟩ : Shape) (⟨2, ![n, M]⟩ : Shape))
    (hr : D.contr.rank = 1) (hs : D.contr.size ⟨0, by omega⟩ = K)
    (l0 : ∀ (i : (⟨2, ![n, M]⟩ : Shape).Idx) (q : D.contr.Idx), (D.lhsIdx i q 0).val = (i 0).val)
    (l1 : ∀ (i : (⟨2, ![n, M]⟩ : Shape).Idx) (q : D.contr.Idx), (D.lhsIdx i q 1).val = (q ⟨0, by omega⟩).val)
    (r0 : ∀ (i : (⟨2, ![n, M]⟩ : Shape).Idx) (q : D.contr.Idx), (D.rhsIdx i q 0).val = (q ⟨0, by omega⟩).val)
    (r1 : ∀ (i : (⟨2, ![n, M]⟩ : Shape).Idx) (q : D.contr.Idx), (D.rhsIdx i q 1).val = (i 1).val)
    (prec : Option ContractPrecision) (sched : HostSchedule)
    (lhs : FVec Ideal (⟨2, ![n, K]⟩ : Shape) φ₁) (rhs : FVec Ideal (⟨2, ![K, M]⟩ : Shape) φ₂) (p : Fin n) (c : Fin M) :
    FloatOps.dotGeneral D prec sched lhs rhs (ix2 p c) = ∑ k : Fin K, (lhs (ix2 p k) : EReal) * (rhs (ix2 k c) : EReal) :=
  (Ideal.dotGeneral_apply D prec sched lhs rhs (ix2 p c)).trans (sum_contr_eq D hr hs l0 l1 r0 r1 lhs rhs p c)

end Cert.PlainDot

end
-- ==== Proof.LibColumns.lean ====
/-
  Three ways a column of numbers meets a matrix, read at an index, and a row sum — general in the extents.

  A vector of `a` numbers recast as an `a × 1` column reads, at `(p, 0)`, entry `p`; an `a × 1` column spread over `b`
  columns reads, at `(p, c)`, the column's entry `p`; and the sum of a matrix over its second axis, over the extended
  reals, reads at `p` the sum over `k` of the entries `(p, k)`. (The transposed column `a × 1 → 1 × a` and the row spread
  over many rows are already in the library.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibColumns

open Idealize.ShloMosaic Idealize.ShloMosaic.ValueIdx

variable {α : Type}

/-- A vector of `a` entries cast to an `a × 1` column reads, at `(p, z)`, the vector's entry `p`. -/
theorem shapeCast_a_a1_apply {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) := by
  refine shapeCast_apply x h (ix2 p z) (ix1 p) ?_
  rw [Shape.rowMajor_val_one, Shape.rowMajor_val_two]
  show p.val = p.val * 1 + z.val
  have := z.isLt
  omega

/-- An `a × 1` column broadcast to `a × b` reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show 0 = if (1 : ℕ) = 1 then 0 else c.val
    rw [if_pos rfl]

/-- Over the extended reals the sum of an `n × m` matrix along its second axis reads, at `p`, `∑ₖ src (p, k)`. -/
theorem rowSum_apply {n m : ℕ} {φ : FTy} (src : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (p : Fin n) :
    multiReduction .add [1] ⟨1, ![n]⟩ src acc h hφ hacc (ix1 p) = ∑ k : Fin m, src (ix2 p k) := by
  refine (Ideal.multiReduction_add_single src acc h hφ hacc (ix1 p)).trans ?_
  refine Finset.sum_congr rfl fun k _ => congrArg src ?_
  funext c
  apply Fin.ext
  match c with
  | ⟨0, _⟩ => rfl
  | ⟨1, _⟩ => rfl

end Cert.LibColumns

end
-- ==== Proof.BlockEntry.lean ====
/-
  The value the kernel's body stores, read entry by entry.

  At a grid point the body holds a tile `x` of 256 token rows (as a 1 × 256 × 1024 block), the expert's two weight
  matrices (1 × 1024 × 4096 and 1 × 4096 × 1024 blocks), one row of each bias table (1 × 4096, 1 × 1024) and 256 gate
  weights.  Entry (r, d) of what it stores is
  `(∑_f gelu (∑ₖ x (r,k) · w1 (k,f) + b1 f) · w2 (f,d) + b2 d) · gate r`: each matrix unit product into a zero
  accumulator is the plain sum over the contracted axis, a change of float format is the identity on the extended reals,
  a bias row is spread over the 256 rows, the gate weights over the 1024 columns, and the leading unit axes are dropped
  and put back by recasts.  That is the specification's `entry` at row r of the tile.
-/
import proofs.«131287_j82334523065003_1_alg».proof.Proof.Gen.KernelIdeal.Skeleton
import proofs.«131287_j82334523065003_1_alg».proof.Proof.ExpertSpec
import proofs.«131287_j82334523065003_1_alg».proof.Proof.LibPlainDot
import proofs.«131287_j82334523065003_1_alg».proof.Proof.LibColumns
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Block

open Cert.KernelIdeal Cert.KernelIdeal.Gen Cert.KernelIdeal.Facts₀ Cert.KernelIdeal.Facts
open Idealize.ShloMosaic Idealize.ShloMosaic.ValueIdx Cert.ExpertSpec

variable {α : Type}

/-- A 1 × n row, flattened, given its unit axis back and spread over `a` rows, reads at (p, c) the row's entry c. -/
theorem rowSpread_apply {a n : ℕ} (v : (⟨2, ![1, n]⟩ : Shape).Idx → α)
    (h1 : (⟨2, ![1, n]⟩ : Shape).ShapeCasts ⟨1, ![n]⟩) (h2 : (⟨1, ![n]⟩ : Shape).ShapeCasts ⟨2, ![1, n]⟩)
    (h3 : (⟨2, ![1, n]⟩ : Shape).Broadcasts ⟨2, ![a, n]⟩) (p : Fin a) (c : Fin n) :
    broadcastTo ⟨2, ![a, n]⟩ (shapeCast ⟨2, ![1, n]⟩ (shapeCast ⟨1, ![n]⟩ v h1) h2) h3 (ix2 p c) = v (ix2 (0 : Fin 1) c) := by
  rw [broadcastTo_1b_ab_apply, shapeCast_a_1a_apply, shapeCast_1a_a_apply]

/-- A vector of `a` numbers made a column and spread over `b` columns reads at (p, c) the vector's entry p. -/
theorem colSpread_apply {a b : ℕ} (v : (⟨1, ![a]⟩ : Shape).Idx → α)
    (h1 : (⟨1, ![a]⟩ : Shape).ShapeCasts ⟨1, ![a]⟩) (h2 : (⟨1, ![a]⟩ : Shape).ShapeCasts ⟨2, ![a, 1]⟩)
    (h3 : (⟨2, ![a, 1]⟩ : Shape).Broadcasts ⟨2, ![a, b]⟩) (p : Fin a) (c : Fin b) :
    broadcastTo ⟨2, ![a, b]⟩ (shapeCast ⟨2, ![a, 1]⟩ (shapeCast ⟨1, ![a]⟩ v h1) h2) h3 (ix2 p c) = v (ix1 p) := by
  rw [Cert.LibColumns.broadcastTo_a1_ab_apply, Cert.LibColumns.shapeCast_a_a1_apply, shapeCast_self]

/-- The first product's dimension numbers pair entry (p, c) and contraction position k with (p, k) and (k, c). -/
theorem dot1_apply (l : FVec Ideal S256x1024 .bf16) (r : FVec Ideal S1024x4096 .bf16) (p : Fin 256) (c : Fin 4096) :
    matmul dot_S256x1024_S1024x4096_S256x4096_1_0_0_1_n_n none l r (constant S256x4096 .f32 0x00000000#32) (ix2 p c)
      = ∑ k : Fin 1024, (l (ix2 p k) : EReal) * (r (ix2 k c) : EReal) :=
  Cert.PlainDot.matmul_zero_apply dot_S256x1024_S1024x4096_S256x4096_1_0_0_1_n_n rfl rfl
    (fun i q => by
      unfold DotDims.lhsIdx
      rw [dif_neg (show ¬(0 : Fin S256x1024.rank) ∈ dot_S256x1024_S1024x4096_S256x4096_1_0_0_1_n_n.lhsBatch by decide),
        dif_pos (show (0 : Fin S256x1024.rank) ∈ dot_S256x1024_S1024x4096_S256x4096_1_0_0_1_n_n.lhsNonContracting by decide)]
      rfl)
    (fun i q => dot_S256x1024_S1024x4096_S256x4096_1_0_0_1_n_n.lhsIdx_val_of_single rfl i q)
    (fun i q => dot_S256x1024_S1024x4096_S256x4096_1_0_0_1_n_n.rhsIdx_val_of_single rfl i q)
    (fun i q => by
      unfold DotDims.rhsIdx
      rw [dif_neg (show ¬(1 : Fin S1024x4096.rank) ∈ dot_S256x1024_S1024x4096_S256x4096_1_0_0_1_n_n.rhsBatch by decide),
        dif_pos (show (1 : Fin S1024x4096.rank) ∈ dot_S256x1024_S1024x4096_S256x4096_1_0_0_1_n_n.rhsNonContracting by decide)]
      rfl)
    none l r p c

/-- The second product's, likewise. -/
theorem dot2_apply (l : FVec Ideal S256x4096 .bf16) (r : FVec Ideal S4096x1024 .bf16) (p : Fin 256) (c : Fin 1024) :
    matmul dot_S256x4096_S4096x1024_S256x1024_1_0_0_1_n_n none l r (constant S256x1024 .f32 0x00000000#32) (ix2 p c)
      = ∑ k : Fin 4096, (l (ix2 p k) : EReal) * (r (ix2 k c) : EReal) :=
  Cert.PlainDot.matmul_zero_apply dot_S256x4096_S4096x1024_S256x1024_1_0_0_1_n_n rfl rfl
    (fun i q => by
      unfold DotDims.lhsIdx
      rw [dif_neg (show ¬(0 : Fin S256x4096.rank) ∈ dot_S256x4096_S4096x1024_S256x1024_1_0_0_1_n_n.lhsBatch by decide),
        dif_pos (show (0 : Fin S256x4096.rank) ∈ dot_S256x4096_S4096x1024_S256x1024_1_0_0_1_n_n.lhsNonContracting by decide)]
      rfl)
    (fun i q => dot_S256x4096_S4096x1024_S256x1024_1_0_0_1_n_n.lhsIdx_val_of_single rfl i q)
    (fun i q => dot_S256x4096_S4096x1024_S256x1024_1_0_0_1_n_n.rhsIdx_val_of_single rfl i q)
    (fun i q => by
      unfold DotDims.rhsIdx
      rw [dif_neg (show ¬(1 : Fin S4096x1024.rank) ∈ dot_S256x4096_S4096x1024_S256x1024_1_0_0_1_n_n.rhsBatch by decide),
        dif_pos (show (1 : Fin S4096x1024.rank) ∈ dot_S256x4096_S4096x1024_S256x1024_1_0_0_1_n_n.rhsNonContracting by decide)]
      rfl)
    none l r p c

/-- The vector operations that spell the tanh form, read at an index: the specification's `gelu` of the entry. -/
theorem act_apply (h : FVec Ideal S256x4096 .f32) (j : S256x4096.Idx) :
    mulf h (mulf (broadcast S256x4096 (Scalar.ofBits (F := Ideal) .f32 0x3F000000#32))
      (addf (broadcast S256x4096 (Scalar.ofBits (F := Ideal) .f32 0x3F800000#32))
        (tanh (mulf (broadcast S256x4096 (Scalar.ofBits (F := Ideal) .f32 0x3F4C422A#32))
          (addf h (mulf (broadcast S256x4096 (Scalar.ofBits (F := Ideal) .f32 0x3D372713#32)) (mulf h (mulf h h)))))))) j
      = gelu (h j) := rfl

/-- The second layer with its bias, at tile entry (r, d). -/
theorem layers_at (v0 : Vec Ideal S1x256x1024 .bf16) (v2 : Vec Ideal S1x1024x4096 .bf16) (v6 : Vec Ideal S1x4096 .f32)
    (v25 : Vec Ideal S1x4096x1024 .bf16) (v29 : Vec Ideal S1x1024 .f32) (r : Fin 256) (d : Fin 1024) :
    k0_pay2 (F := Ideal) v0 v2 v6 v25 v29 (ix2 r d)
      = (∑ f : Fin 4096, gelu (hidden (fun k => v0 (ix3 (0 : Fin 1) r k)) (fun k f => v2 (ix3 (0 : Fin 1) k f)) (fun f => v6 (ix2 (0 : Fin 1) f)) f)
            * v25 (ix3 (0 : Fin 1) f d)) + v29 (ix2 (0 : Fin 1) d) := by
  unfold k0_pay2
  rw [addf_apply, dot2_apply, rowSpread_apply]
  congr 1
  refine Finset.sum_congr rfl fun f _ => ?_
  rw [shapeCast_1ab_ab_apply, truncf_apply]
  congr 1
  rw [act_apply, addf_apply, dot1_apply, rowSpread_apply]
  unfold Cert.ExpertSpec.hidden
  congr 2
  refine Finset.sum_congr rfl fun k _ => ?_
  rw [shapeCast_1ab_ab_apply, shapeCast_1ab_ab_apply]

/-- The stored block at (u, r, d): the specification's entry of row r of the tile. -/
theorem stored_at (v0 : Vec Ideal S1x256x1024 .bf16) (v2 : Vec Ideal S1x1024x4096 .bf16) (v6 : Vec Ideal S1x4096 .f32)
    (v25 : Vec Ideal S1x4096x1024 .bf16) (v29 : Vec Ideal S1x1024 .f32) (v39 : Vec Ideal S256 .f32)
    (u : Fin 1) (r : Fin 256) (d : Fin 1024) :
    k0_pay1 (F := Ideal) (k0_pay2 (F := Ideal) v0 v2 v6 v25 v29) v39 (ix3 u r d)
      = entry (fun k => v0 (ix3 (0 : Fin 1) r k)) (fun k f => v2 (ix3 (0 : Fin 1) k f)) (fun f => v6 (ix2 (0 : Fin 1) f))
          (fun f d => v25 (ix3 (0 : Fin 1) f d)) (fun d => v29 (ix2 (0 : Fin 1) d)) (v39 (ix1 r)) d := by
  unfold k0_pay1
  rw [shapeCast_ab_1ab_apply, mulf_apply, colSpread_apply, layers_at]
  rfl

end Cert.KernelIdeal.Block

end
-- ==== Proof.KernelArray.lean ====
/-
  The kernel's result array, whole.

  Grid point t = (e, j) writes back output block (e, j, 0): rows 256·j … 256·j + 255 of expert e's slab.  The six input
  blocks the point reads are cut from the arrays the region finds: the token tile is block (e, j, 0) of the gathered rows,
  the two weight matrices are slabs e of the two weight arrays, the two bias tables and the gate-weight table are staged
  whole, and the body picks row e of each and entries 256·j … of the gate row itself.  So entry (u, r, d) of what the
  point writes back is the specification's entry for expert e, token slot 256·j + r and column d: block t of the one
  whole-array function `bank` of the arrays.  The 64 blocks tile the array, so after the run the array IS that function.
-/
import proofs.«131287_j82334523065003_1_alg».proof.Proof.PointIdeal
import proofs.«131287_j82334523065003_1_alg».proof.Proof.BlockEntry
import Idealize.ShloMosaic.Lib.Pipeline.Value

set_option maxRecDepth 16384

noncomputable section

namespace Cert.KernelIdeal.Array

open Cert.KernelIdeal Cert.KernelIdeal.Gen
open Idealize.ShloMosaic Idealize.ShloMosaic.TcCoe Idealize.SL.Sem Idealize.ShloMosaic.ValueIdx Cert.ExpertSpec
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl

/-- The expert bank of the arrays as the region finds them: the gathered rows, the two weight arrays, the two bias
    tables and the gathered gate weights. -/
def G (c : Dev nD) : S8x2048x1024.Idx → EReal :=
  bank (V m c main_v26) (V m c main_v27) (V m c main_arg4) (V m c main_v28) (V m c main_arg6) (V m c main_v25)

/-- The printed index maps and the body's offsets, decided over the 64 grid points: every block index and offset in
    terms of the output block's (e, j, 0). -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 3) = win0_6.index t (0 : Fin 3) ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ k0_off1 (grid0.coords t) (0 : Fin 2) = win0_6.index t (0 : Fin 3) ∧ k0_off1 (grid0.coords t) (1 : Fin 2) = 0
    ∧ k0_off2 (grid0.coords t) (0 : Fin 2) = win0_6.index t (0 : Fin 3) ∧ k0_off2 (grid0.coords t) (1 : Fin 2) = 0
    ∧ k0_off3 (grid0.coords t) (0 : Fin 2) = win0_6.index t (0 : Fin 3) ∧ k0_off3 (grid0.coords t) (1 : Fin 2) = 0
    ∧ k0_off4 (grid0.coords t) (0 : Fin 1) = win0_6.index t (1 : Fin 3) * 256
    ∧ win0_6.index t (0 : Fin 3) ≤ 7 ∧ win0_6.index t (1 : Fin 3) ≤ 7 ∧ win0_6.index t (2 : Fin 3) = 0 :=
  (by decide +kernel : ∀ t : Fin grid0.N, _)

/-- Every (expert, tile) pair is some point's output block. -/
theorem idx_onto : ∀ (q0 : Fin 8) (q1 : Fin 8), ∃ t : Fin cfg0.N, win0_6.index t = ![q0.val, q1.val, 0] :=
  (by decide +kernel : ∀ (q0 : Fin 8) (q1 : Fin 8), ∃ t : Fin grid0.N, win0_6.index t = ![q0.val, q1.val, 0])

set_option maxHeartbeats 2000000 in
/-- What point `t` writes back is block `t` of the expert bank of the arrays. -/
theorem flushed_eq (c : Dev nD) (t : Fin cfg0.N) :
    (Point.dats (F := Ideal) m 0 c).flushed 6 t = ((cfg0.win 6).blk t).view.read (Elt Ideal) (G m c) := by
  show (cfg0.win 6).cut (grid0.coords t) ((Point.dats (F := Ideal) m 0 c).after 6 t) = _
  rw [Point.after_6]
  funext y
  obtain ⟨u, r, d, rfl⟩ : ∃ (u : Fin 1) (r : Fin 256) (d : Fin 1024), y = ix3 u r d := ⟨y 0, y 1, y 2, eq_ix3 y⟩
  unfold Point.blockOut
  rw [View.canon_unit_zero zeros3]
  refine (Block.stored_at _ _ _ _ _ _ u r d).trans ?_
  show _ = G m c (((cfg0.win 6).blk t).view.emb (ix3 u r d))
  unfold G bank
  obtain ⟨e00, e01, e02, e10, e11, e12, e20, e21, e30, e31, e32, e40, e41, e50, e51, o10, o11, o20, o21, o30, o31, o4, le0, le1, z2⟩ := idx_facts t
  have hu : u.val = 0 := by omega
  have hr : r.val < 256 := r.isLt
  have hd : (((cfg0.win 6).blk t).view.emb (ix3 u r d)) 2 = d := Fin.ext (by
    show win0_6.index t (2 : Fin 3) * 1024 + 1 * d.val = d.val; omega)
  refine (entry_congr (fun k => ?_) (fun k f => ?_) (fun f => ?_) (fun f d' => ?_) (fun d' => ?_) ?_ d).trans
    (congrArg (entry _ _ _ _ _ _) hd.symm)
  · -- the token row
    show V m c main_v26 (((cfg0.win 0).blk t).view.emb (Point.tileRect.emb (ix3 (0 : Fin 1) r k))) = V m c main_v26 _
    refine congrArg (V m c main_v26) (funext fun a => Fin.ext ?_)
    match a with
    | ⟨0, _⟩ => show win0_0.index t (0 : Fin 3) * 1 + 1 * (0 + 1 * 0) = win0_6.index t (0 : Fin 3) * 1 + 1 * u.val; omega
    | ⟨1, _⟩ => show win0_0.index t (1 : Fin 3) * 256 + 1 * (0 + 1 * r.val) = win0_6.index t (1 : Fin 3) * 256 + 1 * r.val; omega
    | ⟨2, _⟩ => show win0_0.index t (2 : Fin 3) * 1024 + 1 * (0 + 1 * k.val) = k.val; omega
  · -- the first weight matrix
    show V m c main_v27 (((cfg0.win 1).blk t).view.emb (Point.w1Rect.emb (ix3 (0 : Fin 1) k f))) = V m c main_v27 _
    refine congrArg (V m c main_v27) (funext fun a => Fin.ext ?_)
    match a with
    | ⟨0, _⟩ => show win0_1.index t (0 : Fin 3) * 1 + 1 * (0 + 1 * 0) = win0_6.index t (0 : Fin 3) * 1 + 1 * u.val; omega
    | ⟨1, _⟩ => show win0_1.index t (1 : Fin 3) * 1024 + 1 * (0 + 1 * k.val) = k.val; omega
    | ⟨2, _⟩ => show win0_1.index t (2 : Fin 3) * 4096 + 1 * (0 + 1 * f.val) = f.val; omega
  · -- the first bias row
    show V m c main_arg4 (((cfg0.win 2).blk t).view.emb ((Point.b1Row (grid0.coords t)).emb (ix2 (0 : Fin 1) f))) = V m c main_arg4 _
    refine congrArg (V m c main_arg4) (funext fun a => Fin.ext ?_)
    match a with
    | ⟨0, _⟩ => show win0_2.index t (0 : Fin 2) * 8 + 1 * (k0_off1 (grid0.coords t) (0 : Fin 2) + 1 * 0) = win0_6.index t (0 : Fin 3) * 1 + 1 * u.val; omega
    | ⟨1, _⟩ => show win0_2.index t (1 : Fin 2) * 4096 + 1 * (k0_off1 (grid0.coords t) (1 : Fin 2) + 1 * f.val) = f.val; omega
  · -- the second weight matrix
    show V m c main_v28 (((cfg0.win 3).blk t).view.emb (Point.w2Rect.emb (ix3 (0 : Fin 1) f d'))) = V m c main_v28 _
    refine congrArg (V m c main_v28) (funext fun a => Fin.ext ?_)
    match a with
    | ⟨0, _⟩ => show win0_3.index t (0 : Fin 3) * 1 + 1 * (0 + 1 * 0) = win0_6.index t (0 : Fin 3) * 1 + 1 * u.val; omega
    | ⟨1, _⟩ => show win0_3.index t (1 : Fin 3) * 4096 + 1 * (0 + 1 * f.val) = f.val; omega
    | ⟨2, _⟩ => show win0_3.index t (2 : Fin 3) * 1024 + 1 * (0 + 1 * d'.val) = d'.val; omega
  · -- the second bias row
    show V m c main_arg6 (((cfg0.win 4).blk t).view.emb ((Point.b2Row (grid0.coords t)).emb (ix2 (0 : Fin 1) d'))) = V m c main_arg6 _
    refine congrArg (V m c main_arg6) (funext fun a => Fin.ext ?_)
    match a with
    | ⟨0, _⟩ => show win0_4.index t (0 : Fin 2) * 8 + 1 * (k0_off2 (grid0.coords t) (0 : Fin 2) + 1 * 0) = win0_6.index t (0 : Fin 3) * 1 + 1 * u.val; omega
    | ⟨1, _⟩ => show win0_4.index t (1 : Fin 2) * 1024 + 1 * (k0_off2 (grid0.coords t) (1 : Fin 2) + 1 * d'.val) = d'.val; omega
  · -- the gate weight
    have hq : k0_off4 (grid0.coords t) (0 : Fin 1) + 1 * r.val < 2048 := by omega
    have hcut : (Point.gateCut (grid0.coords t)).emb (ix1 r) = ix1 (⟨k0_off4 (grid0.coords t) (0 : Fin 1) + 1 * r.val, hq⟩ : Fin 2048) :=
      funext fun a => Fin.ext (by match a with | ⟨0, _⟩ => rfl)
    show shapeCast S2048 (View.ld (iblk m c 5 t) (Point.gateRow (grid0.coords t))) squeezes_S1x2048_S2048.numel_eq ((Point.gateCut (grid0.coords t)).emb (ix1 r)) = V m c main_v25 _
    rw [hcut, shapeCast_1a_a_apply]
    show V m c main_v25 (((cfg0.win 5).blk t).view.emb ((Point.gateRow (grid0.coords t)).emb
      (ix2 (0 : Fin 1) (⟨k0_off4 (grid0.coords t) (0 : Fin 1) + 1 * r.val, hq⟩ : Fin 2048)))) = V m c main_v25 _
    refine congrArg (V m c main_v25) (funext fun a => Fin.ext ?_)
    match a with
    | ⟨0, _⟩ => show win0_5.index t (0 : Fin 2) * 8 + 1 * (k0_off3 (grid0.coords t) (0 : Fin 2) + 1 * 0) = win0_6.index t (0 : Fin 3) * 1 + 1 * u.val; omega
    | ⟨1, _⟩ => show win0_5.index t (1 : Fin 2) * 2048 + 1 * (k0_off3 (grid0.coords t) (1 : Fin 2) + 1 * (k0_off4 (grid0.coords t) (0 : Fin 1) + 1 * r.val)) = win0_6.index t (1 : Fin 3) * 256 + 1 * r.val; omega

/-- An index of the array is in point `t`'s block iff each coordinate is in the block's range on its axis. -/
theorem mem_blk (t : Fin cfg0.N) (i : S8x2048x1024.Idx) :
    i ∈ ((cfg0.win 6).blk t).view.set ↔ ∀ a : Fin 3, win0_6.index t a * S1x256x1024.size a ≤ (i a).val ∧ (i a).val < win0_6.index t a * S1x256x1024.size a + S1x256x1024.size a := by
  show i ∈ ((View.whole main_v29).slice (win0_6.rect t)).set ↔ _
  rw [View.set_slice_whole, Rect.mem_set_unit]
  exact Iff.rfl

/-- The 64 output blocks cover the array: index (e, s, d) lies in the block of the point (e, s / 256). -/
theorem covered (i : S8x2048x1024.Idx) :
    ∃ t : Fin cfg0.N, (cfg0.win 6).flush t = true ∧ i ∈ ((cfg0.win 6).blk t).view.set := by
  have h0 : (i 0).val < 8 := (i 0).isLt
  have h1 : (i 1).val < 2048 := (i 1).isLt
  have h2 : (i 2).val < 1024 := (i 2).isLt
  obtain ⟨t, ht⟩ := idx_onto ⟨(i 0).val, h0⟩ ⟨(i 1).val / 256, by omega⟩
  have q0 : win0_6.index t (0 : Fin 3) = (i 0).val := congrFun ht 0
  have q1 : win0_6.index t (1 : Fin 3) = (i 1).val / 256 := congrFun ht 1
  have q2 : win0_6.index t (2 : Fin 3) = 0 := congrFun ht 2
  refine ⟨t, flush0_6 t, ?_⟩
  rw [mem_blk]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 256 ≤ (i 1).val ∧ (i 1).val < win0_6.index t (1 : Fin 3) * 256 + 256; omega
  | ⟨2, _⟩ => show win0_6.index t (2 : Fin 3) * 1024 ≤ (i 2).val ∧ (i 2).val < win0_6.index t (2 : Fin 3) * 1024 + 1024; omega

/-- After the run the kernel's result array is the expert bank of the arrays the region found. -/
theorem final (c : Dev nD) : (Point.dats (F := Ideal) m 0 c).arrAt 6 cfg0.N = G m c :=
  (Point.dats (F := Ideal) m 0 c).arrAt_eq_of_cover 6 (G m c) (fun t _ => flushed_eq m c t) covered

end Cert.KernelIdeal.Array

end
-- ==== Proof.RefBank.lean ====
/-
  The reference's expert bank, read entry by entry.

  Between its two gathers and its scatter the reference computes, for expert `e`, token slot `s` and output column `d`,
  `(∑_f gelu (∑ₖ g (e,s,k) · W1 (e,k,f) + b1 (e,f)) · W2 (e,f,d) + b2 (e,d)) · w (e,s)`, where `g` is the array of gathered
  rows and `w` the array of gathered gate weights: the two batched products are plain sums over the contracted axis,
  the biases are spread along the token axis, the gate weight along the columns, and the tanh form of gelu is spelt with
  the cube bracketed `(h · h) · h`.  That is the specification's `bank`, whose cube is bracketed the other way.
-/
import proofs.«131287_j82334523065003_1_alg».proof.Defs
import proofs.«131287_j82334523065003_1_alg».proof.Proof.Gen.ReferenceIdeal.Read
import proofs.«131287_j82334523065003_1_alg».proof.Proof.ExpertSpec

noncomputable section

open scoped BigOperators

namespace Cert.ReferenceIdeal.Bank

open Cert.ReferenceIdeal Cert.ReferenceIdeal.Read Idealize.ShloMosaic Idealize.ShloMosaic.ValueIdx Cert.ExpertSpec

variable (x0 : (⟨S2048x4x1024, .f32⟩ : BufTy).Contents (Elt Ideal)) (x1 : (⟨S8192x8, .f32⟩ : BufTy).Contents (Elt Ideal))
  (x2 : (⟨S2048x8, .i32⟩ : BufTy).Contents (Elt Ideal)) (x3 : (⟨S8x1024x4096, .f32⟩ : BufTy).Contents (Elt Ideal))
  (x4 : (⟨S8x4096, .f32⟩ : BufTy).Contents (Elt Ideal)) (x5 : (⟨S8x4096x1024, .f32⟩ : BufTy).Contents (Elt Ideal))
  (x6 : (⟨S8x1024, .f32⟩ : BufTy).Contents (Elt Ideal))

/-- The first layer before the nonlinearity, at (e, s, f): the gathered row against column `f` of expert `e`'s first
    matrix, plus that expert's bias. -/
theorem preact_at (e : Fin 8) (s : Fin 2048) (f : Fin 4096) :
    val_main_v12 (F := Ideal) x0 x2 x3 x4 (ix3 e s f)
      = hidden (fun k => val_main_v8 (F := Ideal) x0 x2 (ix3 e s k)) (fun k f => x3 (ix3 e k f)) (fun f => x4 (ix2 e f)) f := by
  have hl : ∀ k : Fin 1024, lidx_main_v9 (ix3 e s f) k = ix3 e s k := fun k => funext fun a => Fin.ext (by
    match a with
    | ⟨0, _⟩ => rfl
    | ⟨1, _⟩ => rfl
    | ⟨2, _⟩ => rfl)
  have hr : ∀ k : Fin 1024, ridx_main_v9 (ix3 e s f) k = ix3 e k f := fun k => funext fun a => Fin.ext (by
    match a with
    | ⟨0, _⟩ => rfl
    | ⟨1, _⟩ => rfl
    | ⟨2, _⟩ => rfl)
  have hb : idx_main_v10 (idx_main_v11 (ix3 e s f)) = ix2 e f := funext fun a => Fin.ext (by
    match a with
    | ⟨0, _⟩ => rfl
    | ⟨1, _⟩ => rfl)
  rw [val_main_v12_apply, val_main_v9_apply, val_main_v11_apply, val_main_v10_apply, hb]
  simp only [hl, hr]
  rfl

/-- The nonlinearity, entry by entry: the tanh form with the cube bracketed `(h · h) · h`. -/
theorem act_at (i : S8x2048x4096.Idx) :
    val_main_v25 (F := Ideal) x0 x2 x3 x4 i = gelu' (val_main_v12 (F := Ideal) x0 x2 x3 x4 i) := by
  rw [val_main_v25_apply, val_main_v24_apply, val_main_v23_apply, val_main_cst_3_apply, val_main_v22_apply,
    val_main_v21_apply, val_main_cst_2_apply, val_main_v20_apply, val_main_v19_apply, val_main_v18_apply,
    val_main_cst_1_apply, val_main_v17_apply, val_main_v16_apply, val_main_v15_apply, val_main_cst_apply,
    val_main_v14_apply, val_main_v13_apply]
  rfl

/-- The reference's gated product is the specification's bank of the gathered rows and the gathered gate weights. -/
theorem gated_eq_bank :
    val_main_v49 (F := Ideal) x0 x1 x2 x3 x4 x5 x6
      = bank (val_main_v8 (F := Ideal) x0 x2) x3 x4 x5 x6 (val_main_v46 (F := Ideal) x1 x2) := by
  funext i
  obtain ⟨e, s, d, rfl⟩ : ∃ (e : Fin 8) (s : Fin 2048) (d : Fin 1024), i = ix3 e s d := ⟨i 0, i 1, i 2, eq_ix3 i⟩
  have hl : ∀ k : Fin 4096, lidx_main_v26 (ix3 e s d) k = ix3 e s k := fun k => funext fun a => Fin.ext (by
    match a with
    | ⟨0, _⟩ => rfl
    | ⟨1, _⟩ => rfl
    | ⟨2, _⟩ => rfl)
  have hr : ∀ k : Fin 4096, ridx_main_v26 (ix3 e s d) k = ix3 e k d := fun k => funext fun a => Fin.ext (by
    match a with
    | ⟨0, _⟩ => rfl
    | ⟨1, _⟩ => rfl
    | ⟨2, _⟩ => rfl)
  have hb : idx_main_v27 (idx_main_v28 (ix3 e s d)) = ix2 e d := funext fun a => Fin.ext (by
    match a with
    | ⟨0, _⟩ => rfl
    | ⟨1, _⟩ => rfl)
  have hw : idx_main_v47 (idx_main_v48 (ix3 e s d)) = ix2 e s := funext fun a => Fin.ext (by
    match a with
    | ⟨0, _⟩ => rfl
    | ⟨1, _⟩ => rfl)
  rw [bank_apply, val_main_v49_apply, val_main_v29_apply, val_main_v26_apply, val_main_v28_apply, val_main_v27_apply,
    val_main_v48_apply, val_main_v47_apply, hb, hw]
  simp only [hl, hr, act_at, preact_at, gelu'_eq]
  rfl

end Cert.ReferenceIdeal.Bank

end
-- ==== Proof.KernelResult.lean ====
/-
  The idealized kernel's result, as a function of its arguments.

  Around its one region the program runs host operations that are, line for line, the reference's: before the region it
  flattens the hidden states to rows, transposes the routing table to (expert, slot), wraps negative token indices,
  gathers the routed rows and the routed gate weights, and changes the rows and the two weight arrays to a narrower float
  format (the identity on the extended reals); after the region it scatters the result's rows back to their tokens,
  adding, from an array of zeros, and restores the leading axes.  So the region finds the reference's gathered rows,
  the reference's gathered gate weights and the argument weights and biases; its result array is the expert bank of
  those (the array module), which is the reference's gated product (the reference module); and the host lines after the
  region are the reference's last lines applied to it.  Hence the kernel's result is the reference's result term of the
  kernel's own argument arrays.
-/
import proofs.«131287_j82334523065003_1_alg».proof.Proof.KernelArray
import proofs.«131287_j82334523065003_1_alg».proof.Proof.RefBank
import Idealize.ShloMosaic.Lib.StableHlo.Run

set_option maxRecDepth 16384

noncomputable section

namespace Cert.KernelIdeal.Result

open Cert.KernelIdeal Cert.KernelIdeal.Gen
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-- The region finds, as its token rows, the reference's gathered rows of the hidden states and the routing table. -/
theorem rows_eq (c : Dev nD) :
    V m c main_v26 = Cert.ReferenceIdeal.Read.val_main_v8 (F := Ideal) (m ((c.tc : Thread nD τ).loc main_arg0)) (m ((c.tc : Thread nD τ).loc main_arg2)) := by
  show StableHlo.after hostOps0 (fun b => m (c, b)) (Proc.devRef .tc main_v26) = _
  after_results
  rfl

set_option maxHeartbeats 4000000 in
/-- It finds, as its gate weights, the reference's gathered gate weights. -/
theorem gates_eq (c : Dev nD) :
    V m c main_v25 = Cert.ReferenceIdeal.Read.val_main_v46 (F := Ideal) (m ((c.tc : Thread nD τ).loc main_arg1)) (m ((c.tc : Thread nD τ).loc main_arg2)) := by
  show StableHlo.after hostOps0 (fun b => m (c, b)) (Proc.devRef .tc main_v25) = _
  after_results
  rfl

/-- It finds the first weight array as given (a change of float format is the identity). -/
theorem w1_eq (c : Dev nD) : V m c main_v27 = (m ((c.tc : Thread nD τ).loc main_arg3)) := by
  show StableHlo.after hostOps0 (fun b => m (c, b)) (Proc.devRef .tc main_v27) = _
  after_results
  rfl

/-- And the second. -/
theorem w2_eq (c : Dev nD) : V m c main_v28 = (m ((c.tc : Thread nD τ).loc main_arg5)) := by
  show StableHlo.after hostOps0 (fun b => m (c, b)) (Proc.devRef .tc main_v28) = _
  after_results
  rfl

/-- The transposed routing table, as the lines after the region read it. -/
theorem routes_eq (c : Dev nD) :
    V m c main_v1 = Cert.ReferenceIdeal.Read.val_main_v1 (F := Ideal) (m ((c.tc : Thread nD τ).loc main_arg2)) := by
  show StableHlo.after hostOps0 (fun b => m (c, b)) (Proc.devRef .tc main_v1) = _
  after_results
  rfl

/-- The region's result array is the reference's gated product of the kernel's arguments. -/
theorem region_eq (c : Dev nD) :
    Array.G m c = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold Array.G
  rw [rows_eq, gates_eq, w1_eq, w2_eq, V_main_arg4, V_main_arg6]
  exact (Cert.ReferenceIdeal.Bank.gated_eq_bank _ _ _ _ _ _ _).symm

set_option maxHeartbeats 4000000 in
/-- What the host lines after the region leave as the program's result: the reference's result term of the kernel's
    arguments. -/
theorem result_eq (c : Dev nD) :
    Pipeline.afterTail₀ cfgs (Point.dats (F := Ideal) m) 0 (V0 m) [hostOps1] c main_v40
      = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hA : Pipeline.withArrays (cfgs 0).spec c (V0 m c) (fun w => (Point.dats (F := Ideal) m 0 c).arrAt w (cfgs 0).N)
      (Proc.devRef .tc main_v29) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    ((Pipeline.withArrays_arr spec0 launch0.win.arr_inj c _ _ 6).trans (Array.final m c)).trans (region_eq m c)
  have hT : Pipeline.withArrays (cfgs 0).spec c (V0 m c) (fun w => (Point.dats (F := Ideal) m 0 c).arrAt w (cfgs 0).N)
      (Proc.devRef .tc main_v1) = Cert.ReferenceIdeal.Read.val_main_v1 (F := Ideal) (m ((c.tc : Thread nD τ).loc main_arg2)) :=
    (Pipeline.withArrays_of_ne _ c (V0 m c) _ main_v1 (by exact (by decide : ∀ w, Pipeline.arrRef spec0 w ≠ main_v1))).trans (routes_eq m c)
  unfold Pipeline.afterTail₀
  show StableHlo.after hostOps1 _ (Proc.devRef .tc main_v40) = _
  after_results
  rw [hA, hT]
  rfl

/-- The idealized kernel runs to its end, its result is the reference's result term of its own arguments, and its
    arguments end as they began. -/
theorem run : θ_run defs (onTc (τ := τ) (main (F := Ideal))) ⟨m, fun _ => 0, ρ⟩ (fun r => ∀ c : Dev nD,
      r.2.mem ((c.tc : Thread nD τ).loc main_v40) = Cert.ReferenceIdeal.Read.val_main_v60 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨((h c).2 main_v40 (Pipeline.mem_restRefs_of main_v40 (by decide) (by decide))).trans (result_eq m c),
      ((h c).2 main_arg0 (Pipeline.mem_restRefs_of main_arg0 (by decide) (by decide))).trans (W_main_arg0 m (Point.dats m) c),
      ((h c).2 main_arg1 (Pipeline.mem_restRefs_of main_arg1 (by decide) (by decide))).trans (W_main_arg1 m (Point.dats m) c),
      ((h c).2 main_arg2 (Pipeline.mem_restRefs_of main_arg2 (by decide) (by decide))).trans (W_main_arg2 m (Point.dats m) c),
      ((h c).2 main_arg3 (Pipeline.mem_restRefs_of main_arg3 (by decide) (by decide))).trans (W_main_arg3 m (Point.dats m) c),
      ((h c).1 2).trans (((Point.dats (F := Ideal) m 0 c).arrAt_in 2 rfl _).trans ((Point.A_eq m c 2).trans (V_main_arg4 m c))),
      ((h c).2 main_arg5 (Pipeline.mem_restRefs_of main_arg5 (by decide) (by decide))).trans (W_main_arg5 m (Point.dats m) c),
      ((h c).1 4).trans (((Point.dats (F := Ideal) m 0 c).arrAt_in 4 rfl _).trans ((Point.A_eq m c 4).trans (V_main_arg6 m c)))⟩)
    (Point.run_main (F := Ideal) m ρ)

end Cert.KernelIdeal.Result

end
-- ==== Proof.lean ====
/-
  A sparse mixture-of-experts layer: the kernel's forward pass against its jnp reference, on the extended reals.

  Both programs route tokens to 8 experts with 2048 slots each: they gather the routed rows of the flattened hidden
  states and the routed gate weights, send every slot's row through its expert's perceptron
  `x ↦ gelu (x · W1 + b1) · W2 + b2` (tanh form of gelu, hidden width 4096), scale by the slot's gate weight, and scatter
  the rows back to their tokens, adding.  The reference does the middle step with two batched products; the kernel does it
  in a pipelined region over a grid of (expert, 256-slot tile) points, after narrowing the rows and weights to a shorter
  float format.  On the extended reals a change of float format is the identity, a matrix-unit product into a zero
  accumulator and a batched host product are the same plain sums, and the two spellings of gelu differ only in how the
  cube is bracketed; so the region's result array is the reference's gated product, entry by entry, and the host lines
  before and after the region are the reference's own.  No step uses that the inputs are finite.

  The three frames: each kernel program runs to its end without a fault and leaves its arguments as they were (the
  per-point modules, for any interpretation of the float operations); the reference is a straight line of host
  operations.  The idealization rewrote nothing, so there is nothing to preserve.
-/
import proofs.«131287_j82334523065003_1_alg».proof.Defs
import proofs.«131287_j82334523065003_1_alg».proof.Proof.Gen.Kernel
import proofs.«131287_j82334523065003_1_alg».proof.Proof.Gen.KernelIdeal
import proofs.«131287_j82334523065003_1_alg».proof.Proof.Gen.ReferenceIdeal
import proofs.«131287_j82334523065003_1_alg».proof.Proof.Gen.ReferenceIdeal.Run
import proofs.«131287_j82334523065003_1_alg».proof.Proof.Gen.ReferenceIdeal.Read
import proofs.«131287_j82334523065003_1_alg».proof.Proof.Gen.Pre_finite_inputs
import proofs.«131287_j82334523065003_1_alg».proof.Proof.PointBits
import proofs.«131287_j82334523065003_1_alg».proof.Proof.PointIdeal
import proofs.«131287_j82334523065003_1_alg».proof.Proof.KernelResult
import Idealize.ShloMosaic.Adequacy
import Idealize.ShloMosaic.Init

noncomputable section

namespace Cert.Proof

open Idealize.ShloMosaic Idealize.ShloMosaic.TcCoe Idealize.SL.Sem

/-- The word-level kernel runs to its end and leaves its arguments as they were. -/
theorem frame_kernel : Cert.frame_Kernel := fun m ρ _ => Cert.Kernel.Point.frame (F := Bits) m ρ

/-- So does the idealized kernel. -/
theorem frame_kernelIdeal : Cert.frame_KernelIdeal := fun m ρ _ => Cert.KernelIdeal.Point.frame (F := Ideal) m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the reference's result term of those arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v60_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
